-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x16 : Shape := ⟨3, ![64, 1024, 16]⟩
abbrev S32x1 : Shape := ⟨2, ![32, 1]⟩
abbrev S16x8x1 : Shape := ⟨3, ![16, 8, 1]⟩
abbrev S16x1x32 : Shape := ⟨3, ![16, 1, 32]⟩
abbrev S128 : Shape := ⟨1, ![128]⟩
abbrev S256x256 : Shape := ⟨2, ![256, 256]⟩
abbrev S128x256 : Shape := ⟨2, ![128, 256]⟩
abbrev S_ : Shape := ⟨0, ![]⟩

class Facts : Prop where
  bcast_S_S64x1024x16 : S_.BroadcastsInDim S64x1024x16 (![] : Fin 0 → Fin S64x1024x16.rank)
  reducesTo_S64x1024x16_S_d0_1_2 : S64x1024x16.ReducesTo [0, 1, 2] S_
  h_S_ : 0 < S_.numel
  bcast_S_S32x1 : S_.BroadcastsInDim S32x1 (![] : Fin 0 → Fin S32x1.rank)
  reducesTo_S32x1_S_d0_1 : S32x1.ReducesTo [0, 1] S_
  bcast_S_S16x8x1 : S_.BroadcastsInDim S16x8x1 (![] : Fin 0 → Fin S16x8x1.rank)
  reducesTo_S16x8x1_S_d0_1_2 : S16x8x1.ReducesTo [0, 1, 2] S_
  bcast_S_S16x1x32 : S_.BroadcastsInDim S16x1x32 (![] : Fin 0 → Fin S16x1x32.rank)
  reducesTo_S16x1x32_S_d0_1_2 : S16x1x32.ReducesTo [0, 1, 2] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_

variable [Facts]

def fn_part3 {F : FTy → Type} [FloatOps F] (main_arg11 : FVec F S128x256 .f32) (main_arg12 : FVec F S128 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S128x256 .f32 := Host.absf main_arg11
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S16x8x1 .f32) (main_arg8 : FVec F S16x1x32 .f32) (main_arg9 : FVec F S128 .f32) (main_arg10 : FVec F S256x256 .f32) (main_arg11 : FVec F S128x256 .f32) (main_arg12 : FVec F S128 .f32) (main_v33 : IVec S_ 1) : IVec S_ 1 :=
  let main_v34 : FVec F S16x8x1 .f32 := Host.absf main_arg7
  let main_cst_12 : FVec F S_ .f32 := constant S_ .f32 0x7F800000#32
  let main_v35 : FVec F S16x8x1 .f32 := broadcastInDim S16x8x1 ![] bcast_S_S16x8x1 main_cst_12
  let main_v36 : IVec S16x8x1 1 := cmpf .olt main_v34 main_v35
  let main_c_13 : IVec S_ 1 := constantI S_ 1 1#1
  let main_v37 : IVec S_ 1 := (fun x v => Host.reduce IntOp.andi x v reducesTo_S16x8x1_S_d0_1_2 h_S_) main_v36 main_c_13
  let main_v38 : IVec S_ 1 := andi main_v33 main_v37
  let main_v39 : FVec F S16x1x32 .f32 := Host.absf main_arg8
  let main_cst_14 : FVec F S_ .f32 := constant S_ .f32 0x7F800000#32
  let main_v40 : FVec F S16x1x32 .f32 := broadcastInDim S16x1x32 ![] bcast_S_S16x1x32 main_cst_14
  let main_v41 : IVec S16x1x32 1 := cmpf .olt main_v39 main_v40
  let main_c_15 : IVec S_ 1 := constantI S_ 1 1#1
  let main_v42 : IVec S_ 1 := (fun x v => Host.reduce IntOp.andi x v reducesTo_S16x1x32_S_d0_1_2 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_v48 main_v49 main_v50

def fn_part1 {F : FTy → Type} [FloatOps F] (main_arg4 : FVec F S16x1x32 .f32) (main_arg5 : FVec F S128 .f32) (main_arg6 : FVec F S32x1 .f32) (main_arg7 : FVec F S16x8x1 .f32) (main_arg8 : FVec F S16x1x32 .f32) (main_arg9 : FVec F S128 .f32) (main_arg10 : FVec F S256x256 .f32) (main_arg11 : FVec F S128x256 .f32) (main_arg12 : FVec F S128 .f32) (main_v13 : IVec S_ 1) (main_v16 : IVec S16x8x1 1) : IVec S_ 1 :=
  let main_c_5 : IVec S_ 1 := constantI S_ 1 1#1
  let main_v17 : IVec S_ 1 := (fun x v => Host.reduce IntOp.andi x v reducesTo_S16x8x1_S_d0_1_2 h_S_) main_v16 main_c_5
  let main_v18 : IVec S_ 1 := andi main_v13 main_v17
  let main_v19 : FVec F S16x1x32 .f32 := Host.absf main_arg4
  let main_cst_6 : FVec F S_ .f32 := constant S_ .f32 0x7F800000#32
  let main_v20 : FVec F S16x1x32 .f32 := broadcastInDim S16x1x32 ![] bcast_S_S16x1x32 main_cst_6
  let main_v21 : IVec S16x1x32 1 := cmpf .olt main_v19 main_v20
  let main_c_7 : IVec S_ 1 := constantI S_ 1 1#1
  let main_v22 : IVec S_ 1 := (fun x v => Host.reduce IntOp.andi x v reducesTo_S16x1x32_S_d0_1_2 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S32x1 .f32 := Host.absf main_arg6
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S64x1024x16 .f32) (main_arg1 : FVec F S64x1024x16 .f32) (main_arg2 : FVec F S32x1 .f32) (main_arg3 : FVec F S16x8x1 .f32) (main_arg4 : FVec F S16x1x32 .f32) (main_arg5 : FVec F S128 .f32) (main_arg6 : FVec F S32x1 .f32) (main_arg7 : FVec F S16x8x1 .f32) (main_arg8 : FVec F S16x1x32 .f32) (main_arg9 : FVec F S128 .f32) (main_arg10 : FVec F S256x256 .f32) (main_arg11 : FVec F S128x256 .f32) (main_arg12 : FVec F S128 .f32) : IVec S_ 1 :=
  let main_v0 : FVec F S64x1024x16 .f32 := Host.absf main_arg0
  let main_cst : FVec F S_ .f32 := constant S_ .f32 0x7F800000#32
  let main_v1 : FVec F S64x1024x16 .f32 := broadcastInDim S64x1024x16 ![] bcast_S_S64x1024x16 main_cst
  let main_v2 : IVec S64x1024x16 1 := cmpf .olt main_v0 main_v1
  let main_c : IVec S_ 1 := constantI S_ 1 1#1
  let main_v3 : IVec S_ 1 := (fun x v => Host.reduce IntOp.andi x v reducesTo_S64x1024x16_S_d0_1_2 h_S_) main_v2 main_c
  let main_v4 : FVec F S64x1024x16 .f32 := Host.absf main_arg1
  let main_cst_0 : FVec F S_ .f32 := constant S_ .f32 0x7F800000#32
  let main_v5 : FVec F S64x1024x16 .f32 := broadcastInDim S64x1024x16 ![] bcast_S_S64x1024x16 main_cst_0
  let main_v6 : IVec S64x1024x16 1 := cmpf .olt main_v4 main_v5
  let main_c_1 : IVec S_ 1 := constantI S_ 1 1#1
  let main_v7 : IVec S_ 1 := (fun x v => Host.reduce IntOp.andi x v reducesTo_S64x1024x16_S_d0_1_2 h_S_) main_v6 main_c_1
  let main_v8 : IVec S_ 1 := andi main_v3 main_v7
  let main_v9 : FVec F S32x1 .f32 := Host.absf main_arg2
  let main_cst_2 : FVec F S_ .f32 := constant S_ .f32 0x7F800000#32
  let main_v10 : FVec F S32x1 .f32 := broadcastInDim S32x1 ![] bcast_S_S32x1 main_cst_2
  let main_v11 : IVec S32x1 1 := cmpf .olt main_v9 main_v10
  let main_c_3 : IVec S_ 1 := constantI S_ 1 1#1
  let main_v12 : IVec S_ 1 := (fun x v => Host.reduce IntOp.andi x v reducesTo_S32x1_S_d0_1 h_S_) main_v11 main_c_3
  let main_v13 : IVec S_ 1 := andi main_v8 main_v12
  let main_v14 : FVec F S16x8x1 .f32 := Host.absf main_arg3
  let main_cst_4 : FVec F S_ .f32 := constant S_ .f32 0x7F800000#32
  let main_v15 : FVec F S16x8x1 .f32 := broadcastInDim S16x8x1 ![] bcast_S_S16x8x1 main_cst_4
  let main_v16 : IVec S16x8x1 1 := cmpf .olt main_v14 main_v15
  fn_part1 (F := F) main_arg4 main_arg5 main_arg6 main_arg7 main_arg8 main_arg9 main_arg10 main_arg11 main_arg12 main_v13 main_v16
-- ==== Kernel.lean ====
abbrev S64x1024x16 : Shape := ⟨3, ![64, 1024, 16]⟩
abbrev S32x1 : Shape := ⟨2, ![32, 1]⟩
abbrev S16x8x1 : Shape := ⟨3, ![16, 8, 1]⟩
abbrev S16x1x32 : Shape := ⟨3, ![16, 1, 32]⟩
abbrev S128 : Shape := ⟨1, ![128]⟩
abbrev S256x256 : Shape := ⟨2, ![256, 256]⟩
abbrev S128x256 : Shape := ⟨2, ![128, 256]⟩
abbrev S16x8x32 : Shape := ⟨3, ![16, 8, 32]⟩
abbrev S128x32 : Shape := ⟨2, ![128, 32]⟩
abbrev S128x1 : Shape := ⟨2, ![128, 1]⟩
abbrev S64x128 : Shape := ⟨2, ![64, 128]⟩
abbrev S32x64x16 : Shape := ⟨3, ![32, 64, 16]⟩
abbrev S32x128 : Shape := ⟨2, ![32, 128]⟩
abbrev S32x64x1 : Shape := ⟨3, ![32, 64, 1]⟩
abbrev S32x64 : Shape := ⟨2, ![32, 64]⟩
abbrev S1x1x128 : Shape := ⟨3, ![1, 1, 128]⟩
abbrev S32x64x128 : Shape := ⟨3, ![32, 64, 128]⟩
abbrev S64x256 : Shape := ⟨2, ![64, 256]⟩
abbrev S_ : Shape := ⟨0, ![]⟩
abbrev S256x128 : Shape := ⟨2, ![256, 128]⟩
abbrev S1x128 : Shape := ⟨2, ![1, 128]⟩

abbrev nBuf : Space → Nat
  | .hbm => 39
  | .vmem => 12
  | .smem => 0
  | _ => 0

abbrev bufTy : (tb : Table) → Fin (tcTables nBuf tb) → BufTy
  | .hbm, ⟨0, _⟩ => ⟨S64x1024x16, .f32⟩
  | .hbm, ⟨1, _⟩ => ⟨S64x1024x16, .f32⟩
  | .hbm, ⟨2, _⟩ => ⟨S32x1, .f32⟩
  | .hbm, ⟨3, _⟩ => ⟨S16x8x1, .f32⟩
  | .hbm, ⟨4, _⟩ => ⟨S16x1x32, .f32⟩
  | .hbm, ⟨5, _⟩ => ⟨S128, .f32⟩
  | .hbm, ⟨6, _⟩ => ⟨S32x1, .f32⟩
  | .hbm, ⟨7, _⟩ => ⟨S16x8x1, .f32⟩
  | .hbm, ⟨8, _⟩ => ⟨S16x1x32, .f32⟩
  | .hbm, ⟨9, _⟩ => ⟨S128, .f32⟩
  | .hbm, ⟨10, _⟩ => ⟨S256x256, .f32⟩
  | .hbm, ⟨11, _⟩ => ⟨S128x256, .f32⟩
  | .hbm, ⟨12, _⟩ => ⟨S128, .f32⟩
  | .hbm, ⟨13, _⟩ => ⟨S16x8x32, .f32⟩
  | .hbm, ⟨14, _⟩ => ⟨S128x32, .f32⟩
  | .hbm, ⟨15, _⟩ => ⟨S128x1, .f32⟩
  | .hbm, ⟨16, _⟩ => ⟨S128, .f32⟩
  | .hbm, ⟨17, _⟩ => ⟨S16x8x32, .f32⟩
  | .hbm, ⟨18, _⟩ => ⟨S128x32, .f32⟩
  | .hbm, ⟨19, _⟩ => ⟨S128x1, .f32⟩
  | .hbm, ⟨20, _⟩ => ⟨S128, .f32⟩
  | .hbm, ⟨21, _⟩ => ⟨S64x128, .f32⟩
  | .hbm, ⟨22, _⟩ => ⟨S64x128, .f32⟩
  | .hbm, ⟨23, _⟩ => ⟨S64x256, .f32⟩
  | .hbm, ⟨24, _⟩ => ⟨S256x256, .f32⟩
  | .hbm, ⟨25, _⟩ => ⟨S64x256, .f32⟩
  | .hbm, ⟨26, _⟩ => ⟨S64x256, .f32⟩
  | .hbm, ⟨27, _⟩ => ⟨S64x256, .f32⟩
  | .hbm, ⟨28, _⟩ => ⟨S_, .f32⟩
  | .hbm, ⟨29, _⟩ => ⟨S64x256, .f32⟩
  | .hbm, ⟨30, _⟩ => ⟨S64x256, .f32⟩
  | .hbm, ⟨31, _⟩ => ⟨S_, .f32⟩
  | .hbm, ⟨32, _⟩ => ⟨S64x256, .f32⟩
  | .hbm, ⟨33, _⟩ => ⟨S64x256, .f32⟩
  | .hbm, ⟨34, _⟩ => ⟨S256x128, .f32⟩
  | .hbm, ⟨35, _⟩ => ⟨S64x128, .f32⟩
  | .hbm, ⟨36, _⟩ => ⟨S1x128, .f32⟩
  | .hbm, ⟨37, _⟩ => ⟨S64x128, .f32⟩
  | .hbm, ⟨38, _⟩ => ⟨S64x128, .f32⟩
  | .local _ .vmem, ⟨0, _⟩ => ⟨S32x64x16, .f32⟩
  | .local _ .vmem, ⟨1, _⟩ => ⟨S32x64x16, .f32⟩
  | .local _ .vmem, ⟨2, _⟩ => ⟨S128, .f32⟩
  | .local _ .vmem, ⟨3, _⟩ => ⟨S128, .f32⟩
  | .local _ .vmem, ⟨4, _⟩ => ⟨S32x128, .f32⟩
  | .local _ .vmem, ⟨5, _⟩ => ⟨S32x128, .f32⟩
  | .local _ .vmem, ⟨6, _⟩ => ⟨S32x64x16, .f32⟩
  | .local _ .vmem, ⟨7, _⟩ => ⟨S32x64x16, .f32⟩
  | .local _ .vmem, ⟨8, _⟩ => ⟨S128, .f32⟩
  | .local _ .vmem, ⟨9, _⟩ => ⟨S128, .f32⟩
  | .local _ .vmem, ⟨10, _⟩ => ⟨S32x128, .f32⟩
  | .local _ .vmem, ⟨11, _⟩ => ⟨S32x128, .f32⟩
  | _, _ => ⟨S64x1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S32x64x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S16x8x32_S128x32 : S16x8x32.ShapeCasts S128x32
  shapeCasts_S128x1_S128 : S128x1.ShapeCasts S128
  inb_S32x128_S32x128_0_0 : ∀ a, (![0, 0] : Fin 2 → Nat) a + S32x128.size a ≤ S32x128.size a
  h_S32x128 : 0 < S32x128.numel
  inb_S32x64x16_S32x64x16_0_0_0 : ∀ a, (![0, 0, 0] : Fin 3 → Nat) a + S32x64x16.size a ≤ S32x64x16.size a
  h_S32x64x16 : 0 < S32x64x16.numel
  inb_S128_S128_0 : ∀ a, (![0] : Fin 1 → Nat) a + S128.size a ≤ S128.size a
  h_S128 : 0 < S128.numel
  shapeCasts_S128_S128 : S128.ShapeCasts S128
  slices_S32x64x16_o0_0_0_S32x64x1 : S32x64x16.Slices ![0, 0, 0] S32x64x1
  shapeCasts_S32x64x1_S32x64 : S32x64x1.ShapeCasts S32x64
  shapeCasts_S32x64_S32x64x1 : S32x64.ShapeCasts S32x64x1
  shapeCasts_S128_S1x1x128 : S128.ShapeCasts S1x1x128
  broadcasts_S32x64x1_S32x64x128 : S32x64x1.Broadcasts S32x64x128
  broadcasts_S1x1x128_S32x64x128 : S1x1x128.Broadcasts S32x64x128
  slices_S32x64x16_o0_0_1_S32x64x1 : S32x64x16.Slices ![0, 0, 1] S32x64x1
  slices_S32x64x16_o0_0_2_S32x64x1 : S32x64x16.Slices ![0, 0, 2] S32x64x1
  slices_S32x64x16_o0_0_3_S32x64x1 : S32x64x16.Slices ![0, 0, 3] S32x64x1
  slices_S32x64x16_o0_0_4_S32x64x1 : S32x64x16.Slices ![0, 0, 4] S32x64x1
  slices_S32x64x16_o0_0_5_S32x64x1 : S32x64x16.Slices ![0, 0, 5] S32x64x1
  slices_S32x64x16_o0_0_6_S32x64x1 : S32x64x16.Slices ![0, 0, 6] S32x64x1
  slices_S32x64x16_o0_0_7_S32x64x1 : S32x64x16.Slices ![0, 0, 7] S32x64x1
  slices_S32x64x16_o0_0_8_S32x64x1 : S32x64x16.Slices ![0, 0, 8] S32x64x1
  slices_S32x64x16_o0_0_9_S32x64x1 : S32x64x16.Slices ![0, 0, 9] S32x64x1
  slices_S32x64x16_o0_0_10_S32x64x1 : S32x64x16.Slices ![0, 0, 10] S32x64x1
  slices_S32x64x16_o0_0_11_S32x64x1 : S32x64x16.Slices ![0, 0, 11] S32x64x1
  slices_S32x64x16_o0_0_12_S32x64x1 : S32x64x16.Slices ![0, 0, 12] S32x64x1
  slices_S32x64x16_o0_0_13_S32x64x1 : S32x64x16.Slices ![0, 0, 13] S32x64x1
  slices_S32x64x16_o0_0_14_S32x64x1 : S32x64x16.Slices ![0, 0, 14] S32x64x1
  slices_S32x64x16_o0_0_15_S32x64x1 : S32x64x16.Slices ![0, 0, 15] S32x64x1
  reduces_S32x64x128_S32x128 : S32x64x128.Reduces [1] S32x128
  shapeCasts_S32x128_S32x128 : S32x128.ShapeCasts S32x128
  concatenates_S64x128_S64x128_S64x256_d1 : Shape.Concatenates [S64x128, S64x128] S64x256 1
  transposes_S256x256_S256x256_1_0 : S256x256.Transposes [1, 0] S256x256
  bcast_S_S64x256 : S_.BroadcastsInDim S64x256 (![] : Fin 0 → Fin S64x256.rank)
  transposes_S128x256_S256x128_1_0 : S128x256.Transposes [1, 0] S256x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  dot_S16x8x1_S16x1x32_S16x8x32_2_1_1_2_0_0_wf : DotDims.WF S16x8x1 S16x1x32 S16x8x32 [2] [1] [1] [2] [0] [0]
  dot_S128x32_S32x1_S128x1_1_0_0_1_n_n_wf : DotDims.WF S128x32 S32x1 S128x1 [1] [0] [0] [1] [] []
  dot_S64x256_S256x256_S64x256_1_0_0_1_n_n_wf : DotDims.WF S64x256 S256x256 S64x256 [1] [0] [0] [1] [] []
  dot_S64x256_S256x128_S64x128_1_0_0_1_n_n_wf : DotDims.WF S64x256 S256x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x16.size a ≤ S64x1024x16.size a
  hwx0_0 : ∀ i : grid0.Coords, EltTy.bits .f32 = 32 ∨ (Rect.block (s := S64x1024x16) S32x64x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S64x128.size a
  hwx0_3 : ∀ i : grid0.Coords, EltTy.bits .f32 = 32 ∨ (Rect.block (s := S64x128) S32x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x64x16.size a ≤ S64x1024x16.size a
  hwx1_0 : ∀ i : grid1.Coords, EltTy.bits .f32 = 32 ∨ (Rect.block (s := S64x1024x16) S32x64x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S64x128.size a
  hwx1_3 : ∀ i : grid1.Coords, EltTy.bits .f32 = 32 ∨ (Rect.block (s := S64x128) S32x128.size (cc1_transform_3 i) (hinb1_3 i)).WholeWords (EltTy.packing .f32)

variable [Facts₀]

def dot_S16x8x1_S16x1x32_S16x8x32_2_1_1_2_0_0 : DotDims S16x8x1 S16x1x32 S16x8x32 where
  lhsContracting := [2]
  rhsContracting := [1]
  lhsNonContracting := [1]
  rhsNonContracting := [2]
  lhsBatch := [0]
  rhsBatch := [0]
  wf := dot_S16x8x1_S16x1x32_S16x8x32_2_1_1_2_0_0_wf
def dot_S128x32_S32x1_S128x1_1_0_0_1_n_n : DotDims S128x32 S32x1 S128x1 where
  lhsContracting := [1]
  rhsContracting := [0]
  lhsNonContracting := [0]
  rhsNonContracting := [1]
  lhsBatch := []
  rhsBatch := []
  wf := dot_S128x32_S32x1_S128x1_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf

abbrev win0_0 : Pipeline.Window sig grid0 :=
  Pipeline.Window.ofSpec (Memref.whole main_arg0) S32x64x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S32x64x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S32x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x1024x16 : Shape := ⟨3, ![64, 1024, 16]⟩
abbrev S32x1 : Shape := ⟨2, ![32, 1]⟩
abbrev S16x8x1 : Shape := ⟨3, ![16, 8, 1]⟩
abbrev S16x1x32 : Shape := ⟨3, ![16, 1, 32]⟩
abbrev S128 : Shape := ⟨1, ![128]⟩
abbrev S256x256 : Shape := ⟨2, ![256, 256]⟩
abbrev S128x256 : Shape := ⟨2, ![128, 256]⟩
abbrev S16x8x32 : Shape := ⟨3, ![16, 8, 32]⟩
abbrev S128x32 : Shape := ⟨2, ![128, 32]⟩
abbrev S128x1 : Shape := ⟨2, ![128, 1]⟩
abbrev S64x1024x16x1 : Shape := ⟨4, ![64, 1024, 16, 1]⟩
abbrev S1x1x1x128 : Shape := ⟨4, ![1, 1, 1, 128]⟩
abbrev S64x1024x16x128 : Shape := ⟨4, ![64, 1024, 16, 128]⟩
abbrev S_ : Shape := ⟨0, ![]⟩
abbrev S64x1024x128 : Shape := ⟨3, ![64, 1024, 128]⟩
abbrev S64x128 : Shape := ⟨2, ![64, 128]⟩
abbrev S64x256 : Shape := ⟨2, ![64, 256]⟩
abbrev S256x128 : Shape := ⟨2, ![256, 128]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S64x1024x16, .f32⟩
  | .hbm, ⟨1, _⟩ => ⟨S64x1024x16, .f32⟩
  | .hbm, ⟨2, _⟩ => ⟨S32x1, .f32⟩
  | .hbm, ⟨3, _⟩ => ⟨S16x8x1, .f32⟩
  | .hbm, ⟨4, _⟩ => ⟨S16x1x32, .f32⟩
  | .hbm, ⟨5, _⟩ => ⟨S128, .f32⟩
  | .hbm, ⟨6, _⟩ => ⟨S32x1, .f32⟩
  | .hbm, ⟨7, _⟩ => ⟨S16x8x1, .f32⟩
  | .hbm, ⟨8, _⟩ => ⟨S16x1x32, .f32⟩
  | .hbm, ⟨9, _⟩ => ⟨S128, .f32⟩
  | .hbm, ⟨10, _⟩ => ⟨S256x256, .f32⟩
  | .hbm, ⟨11, _⟩ => ⟨S128x256, .f32⟩
  | .hbm, ⟨12, _⟩ => ⟨S128, .f32⟩
  | .hbm, ⟨13, _⟩ => ⟨S16x8x32, .f32⟩
  | .hbm, ⟨14, _⟩ => ⟨S128x32, .f32⟩
  | .hbm, ⟨15, _⟩ => ⟨S128x1, .f32⟩
  | .hbm, ⟨16, _⟩ => ⟨S128, .f32⟩
  | .hbm, ⟨17, _⟩ => ⟨S64x1024x16x1, .f32⟩
  | .hbm, ⟨18, _⟩ => ⟨S1x1x1x128, .f32⟩
  | .hbm, ⟨19, _⟩ => ⟨S64x1024x16x128, .f32⟩
  | .hbm, ⟨20, _⟩ => ⟨S64x1024x16x128, .f32⟩
  | .hbm, ⟨21, _⟩ => ⟨S64x1024x16x128, .f32⟩
  | .hbm, ⟨22, _⟩ => ⟨S1x1x1x128, .f32⟩
  | .hbm, ⟨23, _⟩ => ⟨S64x1024x16x128, .f32⟩
  | .hbm, ⟨24, _⟩ => ⟨S64x1024x16x128, .f32⟩
  | .hbm, ⟨25, _⟩ => ⟨S64x1024x16x128, .f32⟩
  | .hbm, ⟨26, _⟩ => ⟨S64x1024x16x128, .f32⟩
  | .hbm, ⟨27, _⟩ => ⟨S_, .f32⟩
  | .hbm, ⟨28, _⟩ => ⟨S64x1024x16x128, .f32⟩
  | .hbm, ⟨29, _⟩ => ⟨S64x1024x16x128, .f32⟩
  | .hbm, ⟨30, _⟩ => ⟨S_, .f32⟩
  | .hbm, ⟨31, _⟩ => ⟨S64x1024x16x128, .f32⟩
  | .hbm, ⟨32, _⟩ => ⟨S64x1024x16x128, .f32⟩
  | .hbm, ⟨33, _⟩ => ⟨S_, .f32⟩
  | .hbm, ⟨34, _⟩ => ⟨S64x1024x128, .f32⟩
  | .hbm, ⟨35, _⟩ => ⟨S_, .f32⟩
  | .hbm, ⟨36, _⟩ => ⟨S64x128, .f32⟩
  | .hbm, ⟨37, _⟩ => ⟨S16x8x32, .f32⟩
  | .hbm, ⟨38, _⟩ => ⟨S128x32, .f32⟩
  | .hbm, ⟨39, _⟩ => ⟨S128x1, .f32⟩
  | .hbm, ⟨40, _⟩ => ⟨S128, .f32⟩
  | .hbm, ⟨41, _⟩ => ⟨S64x1024x16x1, .f32⟩
  | .hbm, ⟨42, _⟩ => ⟨S1x1x1x128, .f32⟩
  | .hbm, ⟨43, _⟩ => ⟨S64x1024x16x128, .f32⟩
  | .hbm, ⟨44, _⟩ => ⟨S64x1024x16x128, .f32⟩
  | .hbm, ⟨45, _⟩ => ⟨S64x1024x16x128, .f32⟩
  | .hbm, ⟨46, _⟩ => ⟨S1x1x1x128, .f32⟩
  | .hbm, ⟨47, _⟩ => ⟨S64x1024x16x128, .f32⟩
  | .hbm, ⟨48, _⟩ => ⟨S64x1024x16x128, .f32⟩
  | .hbm, ⟨49, _⟩ => ⟨S64x1024x16x128, .f32⟩
  | .hbm, ⟨50, _⟩ => ⟨S64x1024x16x128, .f32⟩
  | .hbm, ⟨51, _⟩ => ⟨S_, .f32⟩
  | .hbm, ⟨52, _⟩ => ⟨S64x1024x16x128, .f32⟩
  | .hbm, ⟨53, _⟩ => ⟨S64x1024x16x128, .f32⟩
  | .hbm, ⟨54, _⟩ => ⟨S_, .f32⟩
  | .hbm, ⟨55, _⟩ => ⟨S64x1024x16x128, .f32⟩
  | .hbm, ⟨56, _⟩ => ⟨S64x1024x16x128, .f32⟩
  | .hbm, ⟨57, _⟩ => ⟨S_, .f32⟩
  | .hbm, ⟨58, _⟩ => ⟨S64x1024x128, .f32⟩
  | .hbm, ⟨59, _⟩ => ⟨S_, .f32⟩
  | .hbm, ⟨60, _⟩ => ⟨S64x128, .f32⟩
  | .hbm, ⟨61, _⟩ => ⟨S64x256, .f32⟩
  | .hbm, ⟨62, _⟩ => ⟨S256x256, .f32⟩
  | .hbm, ⟨63, _⟩ => ⟨S64x256, .f32⟩
  | .hbm, ⟨64, _⟩ => ⟨S64x256, .f32⟩
  | .hbm, ⟨65, _⟩ => ⟨S64x256, .f32⟩
  | .hbm, ⟨66, _⟩ => ⟨S_, .f32⟩
  | .hbm, ⟨67, _⟩ => ⟨S64x256, .f32⟩
  | .hbm, ⟨68, _⟩ => ⟨S64x256, .f32⟩
  | .hbm, ⟨69, _⟩ => ⟨S_, .f32⟩
  | .hbm, ⟨70, _⟩ => ⟨S64x256, .f32⟩
  | .hbm, ⟨71, _⟩ => ⟨S64x256, .f32⟩
  | .hbm, ⟨72, _⟩ => ⟨S256x128, .f32⟩
  | .hbm, ⟨73, _⟩ => ⟨S64x128, .f32⟩
  | .hbm, ⟨74, _⟩ => ⟨S1x128, .f32⟩
  | .hbm, ⟨75, _⟩ => ⟨S64x128, .f32⟩
  | .hbm, ⟨76, _⟩ => ⟨S64x128, .f32⟩
  | _, _ => ⟨S64x1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  shapeCasts_S16x8x32_S128x32 : S16x8x32.ShapeCasts S128x32
  shapeCasts_S128x1_S128 : S128x1.ShapeCasts S128
  bcast_S64x1024x16_S64x1024x16x1_0_1_2 : S64x1024x16.BroadcastsInDim S64x1024x16x1 (![0, 1, 2] : Fin 3 → Fin S64x1024x16x1.rank)
  bcast_S128_S1x1x1x128_3 : S128.BroadcastsInDim S1x1x1x128 (![3] : Fin 1 → Fin S1x1x1x128.rank)
  bcast_S64x1024x16x1_S64x1024x16x128_0_1_2_3 : S64x1024x16x1.BroadcastsInDim S64x1024x16x128 (![0, 1, 2, 3] : Fin 4 → Fin S64x1024x16x128.rank)
  bcast_S1x1x1x128_S64x1024x16x128_0_1_2_3 : S1x1x1x128.BroadcastsInDim S64x1024x16x128 (![0, 1, 2, 3] : Fin 4 → Fin S64x1024x16x128.rank)
  bcast_S_S64x1024x16x128 : S_.BroadcastsInDim S64x1024x16x128 (![] : Fin 0 → Fin S64x1024x16x128.rank)
  reducesTo_S64x1024x16x128_S64x1024x128_d2 : S64x1024x16x128.ReducesTo [2] S64x1024x128
  h_S_ : 0 < S_.numel
  reducesTo_S64x1024x128_S64x128_d1 : S64x1024x128.ReducesTo [1] S64x128
  concatenates_S64x128_S64x128_S64x256_d1 : Shape.Concatenates [S64x128, S64x128] S64x256 1
  transposes_S256x256_S256x256_1_0 : S256x256.Transposes [1, 0] S256x256
  bcast_S_S64x256 : S_.BroadcastsInDim S64x256 (![] : Fin 0 → Fin S64x256.rank)
  transposes_S128x256_S256x128_1_0 : S128x256.Transposes [1, 0] S256x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  dot_S16x8x1_S16x1x32_S16x8x32_2_1_1_2_0_0_wf : DotDims.WF S16x8x1 S16x1x32 S16x8x32 [2] [1] [1] [2] [0] [0]
  dot_S128x32_S32x1_S128x1_1_0_0_1_n_n_wf : DotDims.WF S128x32 S32x1 S128x1 [1] [0] [0] [1] [] []
  dot_S64x256_S256x256_S64x256_1_0_0_1_n_n_wf : DotDims.WF S64x256 S256x256 S64x256 [1] [0] [0] [1] [] []
  dot_S64x256_S256x128_S64x128_1_0_0_1_n_n_wf : DotDims.WF S64x256 S256x128 S64x128 [1] [0] [0] [1] [] []

variable [Facts₀]

def dot_S16x8x1_S16x1x32_S16x8x32_2_1_1_2_0_0 : DotDims S16x8x1 S16x1x32 S16x8x32 where
  lhsContracting := [2]
  rhsContracting := [1]
  lhsNonContracting := [1]
  rhsNonContracting := [2]
  lhsBatch := [0]
  rhsBatch := [0]
  wf := dot_S16x8x1_S16x1x32_S16x8x32_2_1_1_2_0_0_wf
def dot_S128x32_S32x1_S128x1_1_0_0_1_n_n : DotDims S128x32 S32x1 S128x1 where
  lhsContracting := [1]
  rhsContracting := [0]
  lhsNonContracting := [0]
  rhsNonContracting := [1]
  lhsBatch := []
  rhsBatch := []
  wf := dot_S128x32_S32x1_S128x1_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf

class Facts : Prop extends Facts₀ where

variable [Facts]
-- ==== Proof.KernelRun.lean ====
/-
  The idealized kernel's run with its result named.

  @main is: the host operations that compute the two weight rows, the first pooling call, the second pooling call,
  and the host operations that join the two pooled blocks and apply the two dense layers. Every weakly fair execution
  terminates without a fault, and at the end every buffer that outlives a call holds what this chain of four
  segments leaves in it; in particular the result buffer holds the last segment's value, and the thirteen arguments
  hold what they were launched with.
-/
import proofs.«180520_j36584531427734_2_alg».proof.Proof.Gen.KernelIdeal.Frame

set_option maxRecDepth 16384

noncomputable section

namespace Cert.KernelIdeal.ValueRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the contents the four segments leave in it (`W4`), the arguments as launched. -/
theorem run : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.ValueRun

end
-- ==== Proof.PoolBody.lean ====
/-
  What one visit of the pooling body leaves in the output block, as a value, for each of the two pallas_calls (the two
  branches run the same body on their own x, w and v).

  The body reads the x block [32, 64, 16], the weight row w [128] and the bias row v [128]; for each of the sixteen
  features d it forms logistic (x[·,·,d] · w + v) over [32, 64, 128], keeps the running maximum over d, sums the
  maximum over the 64 set elements of the block, and adds that [32, 128] block of sums to what the output block
  already holds. At the first visit of a batch tile the output block is first overwritten with zeros, so that visit
  leaves the body's value over the zero block.
-/
import proofs.«180520_j36584531427734_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.PoolValue

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The first call (branch 0) -/

/-- The body's stored value: the old block `xo` plus the block of sums over the 64 set elements of the maximum over
    the sixteen features of logistic (x · w + v). -/
def body0 (x : Vec F S32x64x16 .f32) (w v : Vec F S128 .f32) (xo : Vec F S32x128 .f32) : FVec F S32x128 .f32 :=
  k0_pay1 x (k0_pay3 w) v
    (k0_pay10 x (k0_pay3 w) v (k0_pay7 x (k0_pay3 w) v (k0_pay4 x w v) (k0_pay5 x w) (k0_pay6 v)) (k0_pay8 x (k0_pay3 w)) (k0_pay9 v))
    (k0_pay11 x (k0_pay3 w)) (k0_pay12 v) xo

/-- A later visit (not the first of its batch tile): the block ends at the body's value over what it held. -/
theorem out0_B (c : Dev nD) (i : grid0.Coords) (a2 : Memref sig .tc .vmem S32x64x16 .f32) (h2 : a2.IsWhole)
    (a3 : Memref sig .tc .vmem S128 .f32) (h3 : a3.IsWhole) (a4 : Memref sig .tc .vmem S128 .f32) (h4 : a4.IsWhole)
    (a5 : Memref sig .tc .vmem S32x128 .f32) (h5 : a5.IsWhole) (hc : ¬cond0_0 i)
    (x : Vec F S32x64x16 .f32) (w v : Vec F S128 .f32) (xo : Vec F S32x128 .f32) :
    out0_B_3 c i a2 h2 a3 h3 a4 h4 a5 h5 hc x w v xo = body0 x w v xo := by
  unfold out0_B_3
  rw [View.read_writes_eq_canon _ _ _ (cover0_B_3 c i a2 h2 a3 h3 a4 h4 a5 h5 hc x w v xo)]
  unfold kernelRun0_B
  dsimp only
  sl_unfold_words
  rw [View.canon_unit_zero hz2]
  simp only [View.readAt_eq_ld, h2.read_unread, h3.read_unread, h4.read_unread, h5.read_unread,
    View.ld_unit_zero (S := S32x128) hz2, View.ld_unit_zero (S := S32x64x16) hz3, View.ld_unit_zero (S := S128) hz1]
  rfl

/-- The first visit of a batch tile: the block is overwritten with zeros, read back, and ends at the body's value over
    the zero block. -/
theorem out0_A (c : Dev nD) (i : grid0.Coords) (a2 : Memref sig .tc .vmem S32x64x16 .f32) (h2 : a2.IsWhole)
    (a3 : Memref sig .tc .vmem S128 .f32) (h3 : a3.IsWhole) (a4 : Memref sig .tc .vmem S128 .f32) (h4 : a4.IsWhole)
    (a5 : Memref sig .tc .vmem S32x128 .f32) (h5 : a5.IsWhole) (hc : cond0_0 i)
    (x : Vec F S32x64x16 .f32) (w v : Vec F S128 .f32) :
    out0_A_3 c i a2 h2 a3 h3 a4 h4 a5 h5 hc x w v = body0 x w v (k0_pay2 (F := F)) := by
  unfold out0_A_3
  rw [View.read_writes_eq_canon _ _ _ (cover0_A_3 c i a2 h2 a3 h3 a4 h4 a5 h5 hc x w v)]
  unfold kernelRun0_A
  dsimp only
  sl_unfold_words
  rw [View.canon_cons_unit_zero (S := S32x128) hz2, View.readCov_unit_zero (S := S32x128) _ hz2]
  simp only [View.readAt_eq_ld, h2.read_unread, h3.read_unread, h4.read_unread,
    View.ld_unit_zero (S := S32x128) hz2, View.ld_unit_zero (S := S32x64x16) hz3, View.ld_unit_zero (S := S128) hz1]
  rfl

/-! ## The second call (branch 1) -/

/-- The body's stored value: the old block `xo` plus the block of sums over the 64 set elements of the maximum over
    the sixteen features of logistic (x · w + v). -/
def body1 (x : Vec F S32x64x16 .f32) (w v : Vec F S128 .f32) (xo : Vec F S32x128 .f32) : FVec F S32x128 .f32 :=
  k1_pay1 x (k1_pay3 w) v
    (k1_pay10 x (k1_pay3 w) v (k1_pay7 x (k1_pay3 w) v (k1_pay4 x w v) (k1_pay5 x w) (k1_pay6 v)) (k1_pay8 x (k1_pay3 w)) (k1_pay9 v))
    (k1_pay11 x (k1_pay3 w)) (k1_pay12 v) xo

/-- A later visit (not the first of its batch tile): the block ends at the body's value over what it held. -/
theorem out1_B (c : Dev nD) (i : grid1.Coords) (a2 : Memref sig .tc .vmem S32x64x16 .f32) (h2 : a2.IsWhole)
    (a3 : Memref sig .tc .vmem S128 .f32) (h3 : a3.IsWhole) (a4 : Memref sig .tc .vmem S128 .f32) (h4 : a4.IsWhole)
    (a5 : Memref sig .tc .vmem S32x128 .f32) (h5 : a5.IsWhole) (hc : ¬cond1_0 i)
    (x : Vec F S32x64x16 .f32) (w v : Vec F S128 .f32) (xo : Vec F S32x128 .f32) :
    out1_B_3 c i a2 h2 a3 h3 a4 h4 a5 h5 hc x w v xo = body1 x w v xo := by
  unfold out1_B_3
  rw [View.read_writes_eq_canon _ _ _ (cover1_B_3 c i a2 h2 a3 h3 a4 h4 a5 h5 hc x w v xo)]
  unfold kernelRun1_B
  dsimp only
  sl_unfold_words
  rw [View.canon_unit_zero hz2]
  simp only [View.readAt_eq_ld, h2.read_unread, h3.read_unread, h4.read_unread, h5.read_unread,
    View.ld_unit_zero (S := S32x128) hz2, View.ld_unit_zero (S := S32x64x16) hz3, View.ld_unit_zero (S := S128) hz1]
  rfl

/-- The first visit of a batch tile: the block is overwritten with zeros, read back, and ends at the body's value over
    the zero block. -/
theorem out1_A (c : Dev nD) (i : grid1.Coords) (a2 : Memref sig .tc .vmem S32x64x16 .f32) (h2 : a2.IsWhole)
    (a3 : Memref sig .tc .vmem S128 .f32) (h3 : a3.IsWhole) (a4 : Memref sig .tc .vmem S128 .f32) (h4 : a4.IsWhole)
    (a5 : Memref sig .tc .vmem S32x128 .f32) (h5 : a5.IsWhole) (hc : cond1_0 i)
    (x : Vec F S32x64x16 .f32) (w v : Vec F S128 .f32) :
    out1_A_3 c i a2 h2 a3 h3 a4 h4 a5 h5 hc x w v = body1 x w v (k1_pay2 (F := F)) := by
  unfold out1_A_3
  rw [View.read_writes_eq_canon _ _ _ (cover1_A_3 c i a2 h2 a3 h3 a4 h4 a5 h5 hc x w v)]
  unfold kernelRun1_A
  dsimp only
  sl_unfold_words
  rw [View.canon_cons_unit_zero (S := S32x128) hz2, View.readCov_unit_zero (S := S32x128) _ hz2]
  simp only [View.readAt_eq_ld, h2.read_unread, h3.read_unread, h4.read_unread,
    View.ld_unit_zero (S := S32x128) hz2, View.ld_unit_zero (S := S32x64x16) hz3, View.ld_unit_zero (S := S128) hz1]
  rfl

end Cert.KernelIdeal.PoolValue

end
-- ==== Proof.PoolAlgebra.lean ====
/-
  Three facts on the extended reals used to compare the pooling kernel with its reference.

  * The reference spells the logistic function as  1 / (1 + exp (-t))  with the literal 1.0; this is the logistic.
  * The kernel keeps a running maximum over the sixteen features, first to last; the reference folds `max` over the
    sixteen features from -infinity. Both are the largest of the sixteen values.
  * The kernel sums each tile of 64 set elements and then adds the sixteen tile sums; the reference sums all 1024
    set elements at once. Addition of extended reals is commutative and associative, so the two agree.
-/
import Idealize.ShloMosaic.PureOps.Ideal
import Idealize.ShloMosaic.PureOps.Ideal.Laws
import Mathlib.Data.Finset.Fold
import Mathlib.Algebra.BigOperators.Fin

noncomputable section

namespace Cert.PoolAlgebra

open Idealize.ShloMosaic

/-- The f32 word of 1.0 is the number one. -/
theorem ofBits_one_f32 : Ideal.ofBits .f32 0x3F800000#32 = 1 := by
  simp [Ideal.ofBits, Ideal.ieee, -EReal.coe_mul]; norm_num

/-- The f32 word of negative infinity is the bottom of the extended reals. -/
theorem ofBits_neg_inf_f32 : Ideal.ofBits .f32 0xFF800000#32 = ⊥ := by
  simp [Ideal.ofBits, Ideal.ieee]

/-- The reference's spelling  1 / (1 + exp (-t))  of the logistic function, with the literal 1.0 for both ones. -/
theorem host_logistic (t : EReal) :
    Ideal.div (Ideal.ofBits .f32 0x3F800000#32) (Ideal.ofBits .f32 0x3F800000#32 + Ideal.exp (-t)) = Ideal.logistic t := by
  rw [ofBits_one_f32]; rfl

/-- The running maximum over sixteen values, taken first to last. -/
def max16 (f : Fin 16 → EReal) : EReal :=
  max (max (max (max (max (max (max (max (max (max (max (max (max (max (max (f 0) (f 1)) (f 2)) (f 3)) (f 4)) (f 5))
    (f 6)) (f 7)) (f 8)) (f 9)) (f 10)) (f 11)) (f 12)) (f 13)) (f 14)) (f 15)

/-- The running maximum over sixteen values, first to last, is the fold of `max` over them from the bottom. -/
theorem fold_max_sixteen (f : Fin 16 → EReal) :
    (Finset.univ : Finset (Fin 16)).fold max ⊥ f = max16 f := by
  unfold max16
  apply le_antisymm
  · refine (Finset.fold_max_le _).mpr ⟨bot_le, fun x _ => ?_⟩
    fin_cases x <;> simp [le_max_iff]
  · have h : ∀ i, f i ≤ (Finset.univ : Finset (Fin 16)).fold max ⊥ f := fun i =>
      (Finset.le_fold_max _).mpr (Or.inr ⟨i, Finset.mem_univ i, le_rfl⟩)
    simp only [max_le_iff, h, and_self]

/-- Sixteen tiles of 64 consecutive indices make up the 1024 indices: the sum of the tile sums is the whole sum. -/
theorem sum_tiles {M : Type*} [AddCommMonoid M] (g : Fin 1024 → M) :
    ∑ k : Fin 16, ∑ j : Fin 64, g ⟨64 * k.val + j.val, by have := k.isLt; have := j.isLt; omega⟩ = ∑ n : Fin 1024, g n := by
  rw [← Fintype.sum_prod_type']
  refine Fintype.sum_equiv (finProdFinEquiv (m := 16) (n := 64)) _ _ fun x => ?_
  congr 1
  apply Fin.ext
  show 64 * x.1.val + x.2.val = x.2.val + 64 * x.1.val
  omega

/-- A sum over the first sixteen naturals of a function that is a `Fin 16`-indexed family below 16. -/
theorem sum_range_sixteen {M : Type*} [AddCommMonoid M] (T : Fin 16 → M) :
    ∑ k ∈ Finset.range 16, (if h : k < 16 then T ⟨k, h⟩ else 0) = ∑ k : Fin 16, T k := by
  rw [← Fin.sum_univ_eq_sum_range (fun k => if h : k < 16 then T ⟨k, h⟩ else 0) 16]
  exact Finset.sum_congr rfl fun k _ => by rw [dif_pos k.isLt]

end Cert.PoolAlgebra

end
-- ==== Proof.LibLayout3.lean ====
/-
  Layout operations at rank 3 read at an index written by coordinates, for any element type and any extents:
  a shape cast that appends a unit axis ([a,b] → [a,b,1]); a broadcast along a trailing unit axis
  ([a,b,1] → [a,b,c]) and along a leading unit axis ([1,b,c] → [a,b,c]); and, for a reduction over ONE axis,
  the index that a reduced index and a coordinate on the dropped axis name — the middle axis of a rank-3 array,
  the last axis of a rank-2 array.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- Dropping the MIDDLE axis of `[a, b, c]`: the index over `(i, k)` whose middle coordinate is `d` is `(i, d, k)`. -/
theorem lift_mid_ix2 {a b c : ℕ} (h : (⟨3, ![a, b, c]⟩ : Shape).Reduces [1] (⟨2, ![a, c]⟩ : Shape)) (i : Fin a) (k : Fin c)
    (d : Fin ((⟨3, ![a, b, c]⟩ : Shape).size 1)) :
    h.lift (ix2 i k) d = ix3 i (⟨d.val, d.isLt⟩ : Fin b) k := by
  funext ax; apply Fin.ext
  fin_cases ax <;> rfl

/-- Dropping the LAST axis of `[a, b]`: the index over `i` whose last coordinate is `k` is `(i, k)`. -/
theorem lift_last_ix1 {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

end Idealize.ShloMosaic.ValueIdx
-- ==== Proof.LibRow3.lean ====
/-
  A vector [c] laid along the LAST axis of a rank-3 array, read at an index written by coordinates, for any element
  type and any extents: the cast [c] → [1, 1, c] reads the vector at the last coordinate, and the broadcast
  [1, 1, c] → [a, b, c] reads its operand at (0, 0, last coordinate).
-/
import Idealize.ShloMosaic.Lib.Pipeline.Value
import Idealize.ShloMosaic.Lib.ValueIdx

namespace Idealize.ShloMosaic.ValueIdx

open Idealize.ShloMosaic

variable {α : Type}

/-- A `[c]` vector cast to `[1, 1, c]` reads, at `(u0, u1, k)`, the vector at `k`. -/
theorem shapeCast_c_11c_apply {c : ℕ} (w : (⟨1, ![c]⟩ : Shape).Idx → α)
    (h : (⟨1, ![c]⟩ : Shape).ShapeCasts ⟨3, ![1, 1, c]⟩) (u0 u1 : Fin 1) (k : Fin c) :
    shapeCast ⟨3, ![1, 1, c]⟩ w h (ix3 u0 u1 k) = w (ix1 k) :=
  shapeCast_apply w h _ _ (by
    have h0 : u0.val = 0 := by omega
    have h1 : u1.val = 0 := by omega
    rw [Shape.rowMajor_val_three, Shape.rowMajor_val_one]
    show k.val = (u0.val * 1 + u1.val) * c + k.val
    rw [h0, h1]; simp)

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Idealize.ShloMosaic.ValueIdx
-- ==== Proof.PoolIndex.lean ====
/-
  The pooling body's value read at one entry of the output block, over the extended reals.

  For the x block [32, 64, 16], the weight row w and the bias row v, one feature d contributes the slab
  logistic (x[·,·,d] · w + v) of shape [32, 64, 128]; at (r, j, m) it is logistic (x(r,j,d) · w(m) + v(m)). The body keeps
  the largest of the sixteen slabs entry by entry, sums it over the 64 set elements j, and adds the sum to what the
  output block held. The two pallas_calls run this same body.
-/
import proofs.«180520_j36584531427734_2_alg».proof.Proof.PoolBody
import proofs.«180520_j36584531427734_2_alg».proof.Proof.PoolAlgebra
import proofs.«180520_j36584531427734_2_alg».proof.Proof.LibLayout3
import proofs.«180520_j36584531427734_2_alg».proof.Proof.LibRow3
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.PoolValue

open Cert.KernelIdeal Cert.KernelIdeal.Gen Cert.PoolAlgebra

/-- One feature's slab: the x block's feature column at offset `off` on the last axis, copied along the 128 columns,
    times the weight row, plus the bias row, through the logistic function. -/
def feat (off : Fin 3 → Nat) (hs : S32x64x16.Slices off S32x64x1) (x : Vec Ideal S32x64x16 .f32)
    (w : FVec Ideal S128 .f32) (v : Vec Ideal S128 .f32) : FVec Ideal S32x64x128 .f32 :=
  logistic (addf (mulf
      (broadcastTo S32x64x128 (shapeCast S32x64x1 (shapeCast S32x64 (extractStridedSlice S32x64x1 off x hs)
        shapeCasts_S32x64x1_S32x64) shapeCasts_S32x64_S32x64x1) broadcasts_S32x64x1_S32x64x128)
      (broadcastTo S32x64x128 (shapeCast S1x1x128 w shapeCasts_S128_S1x1x128) broadcasts_S1x1x128_S32x64x128))
    (broadcastTo S32x64x128 (shapeCast S1x1x128 v shapeCasts_S128_S1x1x128) broadcasts_S1x1x128_S32x64x128))

/-- The slab of feature `d` at (r, j, m) is logistic (x(r,j,d) · w(m) + v(m)). -/
theorem feat_apply (d : Fin 16) (off : Fin 3 → Nat) (hoff : off = ![0, 0, d.val]) (hs : S32x64x16.Slices off S32x64x1)
    (x : Vec Ideal S32x64x16 .f32) (w : FVec Ideal S128 .f32) (v : Vec Ideal S128 .f32)
    (r : Fin 32) (j : Fin 64) (m : Fin 128) :
    feat off hs x w v (ix3 r j m) = Ideal.logistic (x (ix3 r j d) * w (ix1 m) + v (ix1 m)) := by
  subst hoff
  unfold feat
  show Ideal.logistic (broadcastTo S32x64x128 _ broadcasts_S32x64x1_S32x64x128 (ix3 r j m)
      * broadcastTo S32x64x128 _ broadcasts_S1x1x128_S32x64x128 (ix3 r j m)
      + broadcastTo S32x64x128 _ broadcasts_S1x1x128_S32x64x128 (ix3 r j m)) = _
  rw [broadcastTo_ab1_abc_apply, shapeCast_shapeCast, broadcastTo_11c_abc_apply, broadcastTo_11c_abc_apply,
    shapeCast_c_11c_apply, shapeCast_c_11c_apply]
  congr 3
  refine extractStridedSlice_apply _ x hs (ix3 r j (0 : Fin 1)) (ix3 r j d) fun a => ?_
  match a with
  | ⟨0, _⟩ => show r.val = 0 + r.val; omega
  | ⟨1, _⟩ => show j.val = 0 + j.val; omega
  | ⟨2, _⟩ => show d.val = d.val + 0; omega

/-- The entry-by-entry largest of the sixteen slabs, taken first feature to last. -/
def maxAll (x : Vec Ideal S32x64x16 .f32) (w : FVec Ideal S128 .f32) (v : Vec Ideal S128 .f32) :
    FVec Ideal S32x64x128 .f32 :=
  maximumf (maximumf (maximumf (maximumf (maximumf (maximumf (maximumf (maximumf (maximumf (maximumf (maximumf (maximumf (maximumf (maximumf (maximumf (feat ![0, 0, 0] slices_S32x64x16_o0_0_0_S32x64x1 x w v)
    (feat ![0, 0, 1] slices_S32x64x16_o0_0_1_S32x64x1 x w v))
    (feat ![0, 0, 2] slices_S32x64x16_o0_0_2_S32x64x1 x w v))
    (feat ![0, 0, 3] slices_S32x64x16_o0_0_3_S32x64x1 x w v))
    (feat ![0, 0, 4] slices_S32x64x16_o0_0_4_S32x64x1 x w v))
    (feat ![0, 0, 5] slices_S32x64x16_o0_0_5_S32x64x1 x w v))
    (feat ![0, 0, 6] slices_S32x64x16_o0_0_6_S32x64x1 x w v))
    (feat ![0, 0, 7] slices_S32x64x16_o0_0_7_S32x64x1 x w v))
    (feat ![0, 0, 8] slices_S32x64x16_o0_0_8_S32x64x1 x w v))
    (feat ![0, 0, 9] slices_S32x64x16_o0_0_9_S32x64x1 x w v))
    (feat ![0, 0, 10] slices_S32x64x16_o0_0_10_S32x64x1 x w v))
    (feat ![0, 0, 11] slices_S32x64x16_o0_0_11_S32x64x1 x w v))
    (feat ![0, 0, 12] slices_S32x64x16_o0_0_12_S32x64x1 x w v))
    (feat ![0, 0, 13] slices_S32x64x16_o0_0_13_S32x64x1 x w v))
    (feat ![0, 0, 14] slices_S32x64x16_o0_0_14_S32x64x1 x w v))
    (feat ![0, 0, 15] slices_S32x64x16_o0_0_15_S32x64x1 x w v)

/-- At (r, j, m) it is the largest over the sixteen features d of logistic (x(r,j,d) · w(m) + v(m)). -/
theorem maxAll_apply (x : Vec Ideal S32x64x16 .f32) (w : FVec Ideal S128 .f32) (v : Vec Ideal S128 .f32)
    (r : Fin 32) (j : Fin 64) (m : Fin 128) :
    maxAll x w v (ix3 r j m) = max16 (fun d => Ideal.logistic (x (ix3 r j d) * w (ix1 m) + v (ix1 m))) := by
  unfold maxAll max16
  simp only [maximumf_apply]
  rw [feat_apply 0 ![0, 0, 0] rfl,
    feat_apply 1 ![0, 0, 1] rfl,
    feat_apply 2 ![0, 0, 2] rfl,
    feat_apply 3 ![0, 0, 3] rfl,
    feat_apply 4 ![0, 0, 4] rfl,
    feat_apply 5 ![0, 0, 5] rfl,
    feat_apply 6 ![0, 0, 6] rfl,
    feat_apply 7 ![0, 0, 7] rfl,
    feat_apply 8 ![0, 0, 8] rfl,
    feat_apply 9 ![0, 0, 9] rfl,
    feat_apply 10 ![0, 0, 10] rfl,
    feat_apply 11 ![0, 0, 11] rfl,
    feat_apply 12 ![0, 0, 12] rfl,
    feat_apply 13 ![0, 0, 13] rfl,
    feat_apply 14 ![0, 0, 14] rfl,
    feat_apply 15 ![0, 0, 15] rfl]

/-- The body's value of the first call at row `r`, column `m` of the output block: what the block held there plus the sum
    over the 64 set elements of the block of the largest, over the sixteen features, of logistic (x · w + v). -/
theorem body0_apply (x : Vec Ideal S32x64x16 .f32) (w v : Vec Ideal S128 .f32) (xo : Vec Ideal S32x128 .f32)
    (r : Fin 32) (m : Fin 128) :
    body0 x w v xo (ix2 r m)
      = xo (ix2 r m) + ∑ j : Fin 64, max16 (fun d => Ideal.logistic (x (ix3 r j d) * w (ix1 m) + v (ix1 m))) := by
  have hb : body0 x w v xo = addf (shapeCast S32x128 xo shapeCasts_S32x128_S32x128)
      (multiReduction .add [1] S32x128 (maxAll x (k0_pay3 w) v) 0x00000000#32 reduces_S32x64x128_S32x128 (.inl rfl) rfl) := rfl
  rw [hb]
  show shapeCast S32x128 xo shapeCasts_S32x128_S32x128 (ix2 r m)
      + multiReduction .add [1] S32x128 (maxAll x (k0_pay3 w) v) 0x00000000#32 reduces_S32x64x128_S32x128 (.inl rfl) rfl (ix2 r m) = _
  rw [shapeCast_self]
  congr 1
  refine (Ideal.multiReduction_add_single (maxAll x (k0_pay3 w) v) 0x00000000#32 reduces_S32x64x128_S32x128 (.inl rfl) rfl (ix2 r m)).trans ?_
  refine Finset.sum_congr rfl fun j _ => ?_
  rw [lift_mid_ix2]
  have hw : k0_pay3 w = w := shapeCast_self w shapeCasts_S128_S128
  rw [hw]
  exact maxAll_apply x w v r ⟨j.val, j.isLt⟩ m

/-- The body's value of the second call at row `r`, column `m` of the output block: what the block held there plus the sum
    over the 64 set elements of the block of the largest, over the sixteen features, of logistic (x · w + v). -/
theorem body1_apply (x : Vec Ideal S32x64x16 .f32) (w v : Vec Ideal S128 .f32) (xo : Vec Ideal S32x128 .f32)
    (r : Fin 32) (m : Fin 128) :
    body1 x w v xo (ix2 r m)
      = xo (ix2 r m) + ∑ j : Fin 64, max16 (fun d => Ideal.logistic (x (ix3 r j d) * w (ix1 m) + v (ix1 m))) := by
  have hb : body1 x w v xo = addf (shapeCast S32x128 xo shapeCasts_S32x128_S32x128)
      (multiReduction .add [1] S32x128 (maxAll x (k1_pay3 w) v) 0x00000000#32 reduces_S32x64x128_S32x128 (.inl rfl) rfl) := rfl
  rw [hb]
  show shapeCast S32x128 xo shapeCasts_S32x128_S32x128 (ix2 r m)
      + multiReduction .add [1] S32x128 (maxAll x (k1_pay3 w) v) 0x00000000#32 reduces_S32x64x128_S32x128 (.inl rfl) rfl (ix2 r m) = _
  rw [shapeCast_self]
  congr 1
  refine (Ideal.multiReduction_add_single (maxAll x (k1_pay3 w) v) 0x00000000#32 reduces_S32x64x128_S32x128 (.inl rfl) rfl (ix2 r m)).trans ?_
  refine Finset.sum_congr rfl fun j _ => ?_
  rw [lift_mid_ix2]
  have hw : k1_pay3 w = w := shapeCast_self w shapeCasts_S128_S128
  rw [hw]
  exact maxAll_apply x w v r ⟨j.val, j.isLt⟩ m

end Cert.KernelIdeal.PoolValue

end
-- ==== Proof.PoolSpec.lean ====
/-
  The pooled array, stated once for both branches, and how it is made of tile sums.

  For an x array [64, 1024, 16], a weight row w [128] and a bias row v [128], the pooled array [64, 128] holds at
  (b, m) the sum over the 1024 set elements n of the largest over the sixteen features d of logistic (x(b,n,d) · w(m) + v(m)).
  A grid point of the kernel sees 32 rows and 64 set elements; the 64 elements' contributions form a tile sum, and the
  sixteen tile sums of a row add up to the row's entry.
-/
import proofs.«180520_j36584531427734_2_alg».proof.Proof.PoolAlgebra
import Idealize.ShloMosaic.Lib.ValueIdx

noncomputable section

namespace Cert.PoolAlgebra

open Idealize.ShloMosaic Idealize.ShloMosaic.ValueIdx

/-! ## The pooled array -/

/-- Row `r` of batch tile `bi` (tiles of 32 rows) as a row of the 64-row array. -/
def rowAt (bi : ℕ) (r : Fin 32) : Fin 64 := ⟨(32 * bi + r.val) % 64, Nat.mod_lt _ (by norm_num)⟩

/-- Element `j` of set tile `q` (tiles of 64 elements) as an element of the 1024-element set. -/
def elemAt (q : ℕ) (j : Fin 64) : Fin 1024 := ⟨(64 * q + j.val) % 1024, Nat.mod_lt _ (by norm_num)⟩

/-- One set element's contribution at batch row `b`, column `m`: the largest over the sixteen features `d` of
    logistic (x(b,n,d) · w(m) + v(m)). -/
def gate (X : (⟨3, ![64, 1024, 16]⟩ : Shape).Idx → EReal) (W B : (⟨1, ![128]⟩ : Shape).Idx → EReal)
    (b : Fin 64) (n : Fin 1024) (m : Fin 128) : EReal :=
  max16 (fun d => Ideal.logistic (X (ix3 b n d) * W (ix1 m) + B (ix1 m)))

/-- The sum of the contributions of the 64 elements of set tile `q`, at row `r` of batch tile `bi`. -/
def tile (X : (⟨3, ![64, 1024, 16]⟩ : Shape).Idx → EReal) (W B : (⟨1, ![128]⟩ : Shape).Idx → EReal)
    (bi q : ℕ) (r : Fin 32) (m : Fin 128) : EReal :=
  ∑ j : Fin 64, gate X W B (rowAt bi r) (elemAt q j) m

/-- The pooled array [64, 128]: at batch row `b` and column `m` the sum over all 1024 set elements. -/
def pooled (X : (⟨3, ![64, 1024, 16]⟩ : Shape).Idx → EReal) (W B : (⟨1, ![128]⟩ : Shape).Idx → EReal) :
    (⟨2, ![64, 128]⟩ : Shape).Idx → EReal :=
  fun i => ∑ n : Fin 1024, gate X W B ⟨(i 0).val, idx2_lt0 i⟩ n ⟨(i 1).val, idx2_lt1 i⟩

theorem pooled_apply (X : (⟨3, ![64, 1024, 16]⟩ : Shape).Idx → EReal) (W B : (⟨1, ![128]⟩ : Shape).Idx → EReal)
    (i : (⟨2, ![64, 128]⟩ : Shape).Idx) (b : Fin 64) (m : Fin 128) (hb : (i 0).val = b.val) (hm : (i 1).val = m.val) :
    pooled X W B i = ∑ n : Fin 1024, gate X W B b n m := by
  have e0 : (⟨(i 0).val, idx2_lt0 i⟩ : Fin 64) = b := Fin.ext hb
  have e1 : (⟨(i 1).val, idx2_lt1 i⟩ : Fin 128) = m := Fin.ext hm
  unfold pooled
  rw [e0, e1]

/-- The sixteen tile sums of a row add up to the row's entry of the pooled array. -/
theorem sum_tile_eq (X : (⟨3, ![64, 1024, 16]⟩ : Shape).Idx → EReal) (W B : (⟨1, ![128]⟩ : Shape).Idx → EReal)
    (bi : ℕ) (r : Fin 32) (m : Fin 128) :
    ∑ k ∈ Finset.range 16, tile X W B bi k r m = ∑ n : Fin 1024, gate X W B (rowAt bi r) n m := by
  rw [← Fin.sum_univ_eq_sum_range (fun k => tile X W B bi k r m) 16, ← sum_tiles (fun n => gate X W B (rowAt bi r) n m)]
  refine Finset.sum_congr rfl fun k _ => ?_
  unfold tile
  refine Finset.sum_congr rfl fun j _ => ?_
  congr 1
  apply Fin.ext
  show (64 * k.val + j.val) % 1024 = 64 * k.val + j.val
  have := k.isLt; have := j.isLt
  omega

/-- What one visit adds at (r, m), when its x block is rows `32·bi …` and set elements `64·q …` of the array `X` and its
    weight and bias rows are `W` and `B`: the tile sum. -/
theorem visit (x : (⟨3, ![32, 64, 16]⟩ : Shape).Idx → EReal) (w v : (⟨1, ![128]⟩ : Shape).Idx → EReal)
    (X : (⟨3, ![64, 1024, 16]⟩ : Shape).Idx → EReal) (W B : (⟨1, ![128]⟩ : Shape).Idx → EReal) (bi q : ℕ)
    (hx : ∀ (r : Fin 32) (j : Fin 64) (d : Fin 16), x (ix3 r j d) = X (ix3 (rowAt bi r) (elemAt q j) d))
    (hw : ∀ m : Fin 128, w (ix1 m) = W (ix1 m)) (hv : ∀ m : Fin 128, v (ix1 m) = B (ix1 m)) (r : Fin 32) (m : Fin 128) :
    ∑ j : Fin 64, max16 (fun d => Ideal.logistic (x (ix3 r j d) * w (ix1 m) + v (ix1 m))) = tile X W B bi q r m := by
  unfold tile gate
  simp only [hx, hw, hv]

end Cert.PoolAlgebra

end
-- ==== Proof.PoolRun.lean ====
/-
  Each pooling call's output array after the call: the pooled array of the arrays the call found.

  The call's grid is 2 batch tiles × 16 set tiles; point t = 16·bi + q visits batch tile bi (rows 32·bi … 32·bi+31)
  and set tile q (set elements 64·q … 64·q+63). The output block of a batch tile stays in place over its sixteen
  visits and is written back after the last one. So the block accumulates, tile by tile, the sums over set elements of
  the largest-over-features logistic value, and the array ends with the sums over all 1024 set elements.
-/
import proofs.«180520_j36584531427734_2_alg».proof.Proof.PoolIndex
import proofs.«180520_j36584531427734_2_alg».proof.Proof.PoolSpec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.PoolValue

open Cert.KernelIdeal Cert.KernelIdeal.Gen Cert.PoolAlgebra

variable (V : (c : Dev nD) → (b : Ref sig .tc) → Buf (Elt Ideal) ((c : Thread nD τ).loc b))

/-! ## The first call (branch 0) -/

/-- The printed index maps of the call's four windows, decided over its 2 × 16 grid: the x block of point `t` is batch
    tile `t / 16`, set tile `t % 16`; the weight and bias rows are whole at every point; the output block is batch
    tile `t / 16`. -/
theorem idx_facts0 : ∀ t : Fin cfg0.N, win0_0.index t (0 : Fin 3) = t.val / 16 ∧ win0_0.index t (1 : Fin 3) = t.val % 16
    ∧ win0_0.index t (2 : Fin 3) = 0 ∧ win0_1.index t (0 : Fin 1) = 0 ∧ win0_2.index t (0 : Fin 1) = 0
    ∧ win0_3.index t (0 : Fin 2) = t.val / 16 ∧ win0_3.index t (1 : Fin 2) = 0 :=
  (by decide +kernel : ∀ t : Fin grid0.N, _)

/-- The x block at point `t = 16·bi + q` reads rows `32·bi + r` and set elements `64·q + j` of the x array. -/
theorem xblock0 (c : Dev nD) (t : Fin cfg0.N) (bi q : ℕ) (ht : t.val = 16 * bi + q) (hq : q < 16)
    (r : Fin 32) (j : Fin 64) (d : Fin 16) :
    (iblk0 V c 0 t : Vec Ideal S32x64x16 .f32) (ix3 r j d) = V c main_arg0 (ix3 (rowAt bi r) (elemAt q j) d) := by
  have hN : t.val < 32 := lt_of_lt_of_eq t.isLt (show cfg0.N = 32 from N_0)
  obtain ⟨e0, e1, e2, -⟩ := idx_facts0 t
  show V c main_arg0 (((cfg0.win 0).blk t).view.emb (ix3 r j d)) = _
  refine congrArg (V c main_arg0) ?_
  funext a; apply Fin.ext
  have := r.isLt; have := j.isLt
  match a with
  | ⟨0, _⟩ => show win0_0.index t (0 : Fin 3) * 32 + 1 * r.val = (32 * bi + r.val) % 64; rw [e0]; omega
  | ⟨1, _⟩ => show win0_0.index t (1 : Fin 3) * 64 + 1 * j.val = (64 * q + j.val) % 1024; rw [e1]; omega
  | ⟨2, _⟩ => show win0_0.index t (2 : Fin 3) * 16 + 1 * d.val = d.val; rw [e2]; omega

/-- The weight block at every point is the whole weight row. -/
theorem wblock0 (c : Dev nD) (t : Fin cfg0.N) (m : Fin 128) :
    (iblk0 V c 1 t : Vec Ideal S128 .f32) (ix1 m) = V c main_v3 (ix1 m) := by
  obtain ⟨-, -, -, e3, -⟩ := idx_facts0 t
  show V c main_v3 (((cfg0.win 1).blk t).view.emb (ix1 m)) = _
  refine congrArg (V c main_v3) ?_
  funext a; apply Fin.ext
  match a with
  | ⟨0, _⟩ => show win0_1.index t (0 : Fin 1) * 128 + 1 * m.val = m.val; rw [e3]; omega

/-- The bias block at every point is the whole bias row. -/
theorem vblock0 (c : Dev nD) (t : Fin cfg0.N) (m : Fin 128) :
    (iblk0 V c 2 t : Vec Ideal S128 .f32) (ix1 m) = V c main_arg5 (ix1 m) := by
  obtain ⟨-, -, -, -, e4, -⟩ := idx_facts0 t
  show V c main_arg5 (((cfg0.win 2).blk t).view.emb (ix1 m)) = _
  refine congrArg (V c main_arg5) ?_
  funext a; apply Fin.ext
  match a with
  | ⟨0, _⟩ => show win0_2.index t (0 : Fin 1) * 128 + 1 * m.val = m.val; rw [e4]; omega

/-- The zero block the first visit of a batch tile stores reads zero. -/
theorem zero0_apply (r : Fin 32) (m : Fin 128) : (k0_pay2 (F := Ideal)) (ix2 r m) = 0 := by
  unfold k0_pay2
  show Ideal.ofBits .f32 0x00000000#32 = 0
  exact Ideal.ofBits_zero_f32

/-- THE RUNNING SUM. After the visit at point `16·bi + q` the output block holds, at (r, m), the sum of the tile sums of
    set tiles 0 … q of batch tile bi: the first visit of the batch tile starts from zero, every later one adds its
    tile sum to what the visit before left. By induction on `q`. -/
theorem outsAt0_eq (c : Dev nD) (bi : ℕ) : ∀ (q : ℕ), q < 16 → ∀ (n : ℕ) (h : n < cfg0.N), n = 16 * bi + q →
    ∀ (r : Fin 32) (m : Fin 128),
    (outsAt0 V c n h : Vec Ideal S32x128 .f32) (ix2 r m)
      = ∑ k ∈ Finset.range (q + 1), tile (V c main_arg0) (V c main_v3) (V c main_arg5) bi k r m
  | 0, _, n, h, hn, r, m => by
    have h0 : (⟨n, h⟩ : Fin cfg0.N).val % 16 = 0 := by dsimp only; omega
    have e : outsAt0 V c n h = _ := outsAt0_A V c ⟨n, h⟩ h0
    rw [e, out0_A]
    refine (body0_apply _ _ _ _ r m).trans ?_
    rw [zero0_apply, zero_add, Finset.sum_range_one]
    exact visit _ _ _ (V c main_arg0) (V c main_v3) (V c main_arg5) bi 0
      (xblock0 V c ⟨n, h⟩ bi 0 hn (by omega)) (wblock0 V c ⟨n, h⟩) (vblock0 V c ⟨n, h⟩) r m
  | q + 1, hq, n, h, hn, r, m => by
    have hB : ¬ (⟨n, h⟩ : Fin cfg0.N).val % 16 = 0 := by dsimp only; omega
    have e : outsAt0 V c n h = _ := outsAt0_B V c ⟨n, h⟩ hB
    rw [e, out0_B]
    refine (body0_apply _ _ _ _ r m).trans ?_
    rw [Finset.sum_range_succ]
    have ih := outsAt0_eq c bi q (by omega) (n - 1) (Nat.lt_of_le_of_lt (Nat.sub_le _ _) h) (by omega) r m
    exact congrArg₂ (· + ·) ih (visit _ _ _ (V c main_arg0) (V c main_v3) (V c main_arg5) bi (q + 1)
      (xblock0 V c ⟨n, h⟩ bi (q + 1) hn hq) (wblock0 V c ⟨n, h⟩) (vblock0 V c ⟨n, h⟩) r m)

/-- WHAT A WRITE-BACK WRITES. The output block is written back after the last set tile of each batch tile (the points
    ≡ 15 mod 16); by then it holds the whole row sums, that is, its block of the pooled array. -/
theorem flushed0_eq (c : Dev nD) (t : Fin cfg0.N) (hf : (cfg0.win 3).flush t = true) :
    (dat0 V c).flushed 3 t
      = ((cfg0.win 3).blk t).view.read (Elt Ideal) (pooled (V c main_arg0) (V c main_v3) (V c main_arg5)) := by
  have hN : t.val < 32 := lt_of_lt_of_eq t.isLt (show cfg0.N = 32 from N_0)
  have h15 : t.val % 16 = 15 := (flush0_3 t).mp hf
  obtain ⟨-, -, -, -, -, e5, e6⟩ := idx_facts0 t
  show (cfg0.win 3).cut (grid0.coords t) ((dat0 V c).after 3 t) = _
  rw [after0_3]
  funext y
  obtain ⟨r, m, rfl⟩ : ∃ (r : Fin 32) (m : Fin 128), y = ix2 r m := ⟨y 0, y 1, eq_ix2 y⟩
  show (outsAt0 V c t.val t.isLt : Vec Ideal S32x128 .f32) (ix2 r m)
    = pooled (V c main_arg0) (V c main_v3) (V c main_arg5) (((cfg0.win 3).blk t).view.emb (ix2 r m))
  rw [outsAt0_eq V c (t.val / 16) 15 (by omega) t.val t.isLt (by omega) r m, sum_tile_eq]
  refine (pooled_apply _ _ _ _ (rowAt (t.val / 16) r) m ?_ ?_).symm
  · show win0_3.index t (0 : Fin 2) * 32 + 1 * r.val = (32 * (t.val / 16) + r.val) % 64
    have := r.isLt
    rw [e5]; omega
  · show win0_3.index t (1 : Fin 2) * 128 + 1 * m.val = m.val
    rw [e6]; omega

/-- An index of the output array is in point `t`'s block iff each coordinate is in the block's range on its axis. -/
theorem mem_blk0 (t : Fin cfg0.N) (i : S64x128.Idx) :
    i ∈ ((cfg0.win 3).blk t).view.set ↔ ∀ a : Fin 2, win0_3.index t a * S32x128.size a ≤ (i a).val ∧ (i a).val < win0_3.index t a * S32x128.size a + S32x128.size a := by
  show i ∈ ((View.whole main_v8).slice (win0_3.rect t)).set ↔ _
  rw [View.set_slice_whole, Rect.mem_set_unit]
  exact Iff.rfl

/-- THE POOLED ARRAY. The two write-backs (one per batch tile) cover the 64 rows, so after the call the output array is
    the pooled array of the x, weight and bias arrays the call found. -/
theorem final0 (c : Dev nD) :
    (dat0 V c).arrAt 3 cfg0.N = pooled (V c main_arg0) (V c main_v3) (V c main_arg5) :=
  (dat0 V c).arrAt_eq_of_cover 3 (pooled (V c main_arg0) (V c main_v3) (V c main_arg5)) (fun t hf => flushed0_eq V c t hf) fun i => by
    have hi0 : (i 0).val < 64 := (i 0).isLt
    have hi1 : (i 1).val < 128 := (i 1).isLt
    have hlt : 16 * ((i 0).val / 32) + 15 < cfg0.N := by rw [show cfg0.N = 32 from N_0]; omega
    obtain ⟨-, -, -, -, -, e5, e6⟩ := idx_facts0 ⟨16 * ((i 0).val / 32) + 15, hlt⟩
    refine ⟨⟨16 * ((i 0).val / 32) + 15, hlt⟩, (flush0_3 _).mpr (by dsimp only; omega), ?_⟩
    rw [mem_blk0]
    intro a
    match a with
    | ⟨0, _⟩ =>
      show win0_3.index ⟨16 * ((i 0).val / 32) + 15, hlt⟩ (0 : Fin 2) * 32 ≤ (i 0).val
        ∧ (i 0).val < win0_3.index ⟨16 * ((i 0).val / 32) + 15, hlt⟩ (0 : Fin 2) * 32 + 32
      rw [e5]; dsimp only; omega
    | ⟨1, _⟩ =>
      show win0_3.index ⟨16 * ((i 0).val / 32) + 15, hlt⟩ (1 : Fin 2) * 128 ≤ (i 1).val
        ∧ (i 1).val < win0_3.index ⟨16 * ((i 0).val / 32) + 15, hlt⟩ (1 : Fin 2) * 128 + 128
      rw [e6]; omega

/-! ## The second call (branch 1) -/

/-- The printed index maps of the call's four windows, decided over its 2 × 16 grid: the x block of point `t` is batch
    tile `t / 16`, set tile `t % 16`; the weight and bias rows are whole at every point; the output block is batch
    tile `t / 16`. -/
theorem idx_facts1 : ∀ t : Fin cfg1.N, win1_0.index t (0 : Fin 3) = t.val / 16 ∧ win1_0.index t (1 : Fin 3) = t.val % 16
    ∧ win1_0.index t (2 : Fin 3) = 0 ∧ win1_1.index t (0 : Fin 1) = 0 ∧ win1_2.index t (0 : Fin 1) = 0
    ∧ win1_3.index t (0 : Fin 2) = t.val / 16 ∧ win1_3.index t (1 : Fin 2) = 0 :=
  (by decide +kernel : ∀ t : Fin grid1.N, _)

/-- The x block at point `t = 16·bi + q` reads rows `32·bi + r` and set elements `64·q + j` of the x array. -/
theorem xblock1 (c : Dev nD) (t : Fin cfg1.N) (bi q : ℕ) (ht : t.val = 16 * bi + q) (hq : q < 16)
    (r : Fin 32) (j : Fin 64) (d : Fin 16) :
    (iblk1 V c 0 t : Vec Ideal S32x64x16 .f32) (ix3 r j d) = V c main_arg1 (ix3 (rowAt bi r) (elemAt q j) d) := by
  have hN : t.val < 32 := lt_of_lt_of_eq t.isLt (show cfg1.N = 32 from N_1)
  obtain ⟨e0, e1, e2, -⟩ := idx_facts1 t
  show V c main_arg1 (((cfg1.win 0).blk t).view.emb (ix3 r j d)) = _
  refine congrArg (V c main_arg1) ?_
  funext a; apply Fin.ext
  have := r.isLt; have := j.isLt
  match a with
  | ⟨0, _⟩ => show win1_0.index t (0 : Fin 3) * 32 + 1 * r.val = (32 * bi + r.val) % 64; rw [e0]; omega
  | ⟨1, _⟩ => show win1_0.index t (1 : Fin 3) * 64 + 1 * j.val = (64 * q + j.val) % 1024; rw [e1]; omega
  | ⟨2, _⟩ => show win1_0.index t (2 : Fin 3) * 16 + 1 * d.val = d.val; rw [e2]; omega

/-- The weight block at every point is the whole weight row. -/
theorem wblock1 (c : Dev nD) (t : Fin cfg1.N) (m : Fin 128) :
    (iblk1 V c 1 t : Vec Ideal S128 .f32) (ix1 m) = V c main_v7 (ix1 m) := by
  obtain ⟨-, -, -, e3, -⟩ := idx_facts1 t
  show V c main_v7 (((cfg1.win 1).blk t).view.emb (ix1 m)) = _
  refine congrArg (V c main_v7) ?_
  funext a; apply Fin.ext
  match a with
  | ⟨0, _⟩ => show win1_1.index t (0 : Fin 1) * 128 + 1 * m.val = m.val; rw [e3]; omega

/-- The bias block at every point is the whole bias row. -/
theorem vblock1 (c : Dev nD) (t : Fin cfg1.N) (m : Fin 128) :
    (iblk1 V c 2 t : Vec Ideal S128 .f32) (ix1 m) = V c main_arg9 (ix1 m) := by
  obtain ⟨-, -, -, -, e4, -⟩ := idx_facts1 t
  show V c main_arg9 (((cfg1.win 2).blk t).view.emb (ix1 m)) = _
  refine congrArg (V c main_arg9) ?_
  funext a; apply Fin.ext
  match a with
  | ⟨0, _⟩ => show win1_2.index t (0 : Fin 1) * 128 + 1 * m.val = m.val; rw [e4]; omega

/-- The zero block the first visit of a batch tile stores reads zero. -/
theorem zero1_apply (r : Fin 32) (m : Fin 128) : (k1_pay2 (F := Ideal)) (ix2 r m) = 0 := by
  unfold k1_pay2
  show Ideal.ofBits .f32 0x00000000#32 = 0
  exact Ideal.ofBits_zero_f32

/-- THE RUNNING SUM. After the visit at point `16·bi + q` the output block holds, at (r, m), the sum of the tile sums of
    set tiles 0 … q of batch tile bi: the first visit of the batch tile starts from zero, every later one adds its
    tile sum to what the visit before left. By induction on `q`. -/
theorem outsAt1_eq (c : Dev nD) (bi : ℕ) : ∀ (q : ℕ), q < 16 → ∀ (n : ℕ) (h : n < cfg1.N), n = 16 * bi + q →
    ∀ (r : Fin 32) (m : Fin 128),
    (outsAt1 V c n h : Vec Ideal S32x128 .f32) (ix2 r m)
      = ∑ k ∈ Finset.range (q + 1), tile (V c main_arg1) (V c main_v7) (V c main_arg9) bi k r m
  | 0, _, n, h, hn, r, m => by
    have h0 : (⟨n, h⟩ : Fin cfg1.N).val % 16 = 0 := by dsimp only; omega
    have e : outsAt1 V c n h = _ := outsAt1_A V c ⟨n, h⟩ h0
    rw [e, out1_A]
    refine (body1_apply _ _ _ _ r m).trans ?_
    rw [zero1_apply, zero_add, Finset.sum_range_one]
    exact visit _ _ _ (V c main_arg1) (V c main_v7) (V c main_arg9) bi 0
      (xblock1 V c ⟨n, h⟩ bi 0 hn (by omega)) (wblock1 V c ⟨n, h⟩) (vblock1 V c ⟨n, h⟩) r m
  | q + 1, hq, n, h, hn, r, m => by
    have hB : ¬ (⟨n, h⟩ : Fin cfg1.N).val % 16 = 0 := by dsimp only; omega
    have e : outsAt1 V c n h = _ := outsAt1_B V c ⟨n, h⟩ hB
    rw [e, out1_B]
    refine (body1_apply _ _ _ _ r m).trans ?_
    rw [Finset.sum_range_succ]
    have ih := outsAt1_eq c bi q (by omega) (n - 1) (Nat.lt_of_le_of_lt (Nat.sub_le _ _) h) (by omega) r m
    exact congrArg₂ (· + ·) ih (visit _ _ _ (V c main_arg1) (V c main_v7) (V c main_arg9) bi (q + 1)
      (xblock1 V c ⟨n, h⟩ bi (q + 1) hn hq) (wblock1 V c ⟨n, h⟩) (vblock1 V c ⟨n, h⟩) r m)

/-- WHAT A WRITE-BACK WRITES. The output block is written back after the last set tile of each batch tile (the points
    ≡ 15 mod 16); by then it holds the whole row sums, that is, its block of the pooled array. -/
theorem flushed1_eq (c : Dev nD) (t : Fin cfg1.N) (hf : (cfg1.win 3).flush t = true) :
    (dat1 V c).flushed 3 t
      = ((cfg1.win 3).blk t).view.read (Elt Ideal) (pooled (V c main_arg1) (V c main_v7) (V c main_arg9)) := by
  have hN : t.val < 32 := lt_of_lt_of_eq t.isLt (show cfg1.N = 32 from N_1)
  have h15 : t.val % 16 = 15 := (flush1_3 t).mp hf
  obtain ⟨-, -, -, -, -, e5, e6⟩ := idx_facts1 t
  show (cfg1.win 3).cut (grid1.coords t) ((dat1 V c).after 3 t) = _
  rw [after1_3]
  funext y
  obtain ⟨r, m, rfl⟩ : ∃ (r : Fin 32) (m : Fin 128), y = ix2 r m := ⟨y 0, y 1, eq_ix2 y⟩
  show (outsAt1 V c t.val t.isLt : Vec Ideal S32x128 .f32) (ix2 r m)
    = pooled (V c main_arg1) (V c main_v7) (V c main_arg9) (((cfg1.win 3).blk t).view.emb (ix2 r m))
  rw [outsAt1_eq V c (t.val / 16) 15 (by omega) t.val t.isLt (by omega) r m, sum_tile_eq]
  refine (pooled_apply _ _ _ _ (rowAt (t.val / 16) r) m ?_ ?_).symm
  · show win1_3.index t (0 : Fin 2) * 32 + 1 * r.val = (32 * (t.val / 16) + r.val) % 64
    have := r.isLt
    rw [e5]; omega
  · show win1_3.index t (1 : Fin 2) * 128 + 1 * m.val = m.val
    rw [e6]; omega

/-- An index of the output array is in point `t`'s block iff each coordinate is in the block's range on its axis. -/
theorem mem_blk1 (t : Fin cfg1.N) (i : S64x128.Idx) :
    i ∈ ((cfg1.win 3).blk t).view.set ↔ ∀ a : Fin 2, win1_3.index t a * S32x128.size a ≤ (i a).val ∧ (i a).val < win1_3.index t a * S32x128.size a + S32x128.size a := by
  show i ∈ ((View.whole main_v9).slice (win1_3.rect t)).set ↔ _
  rw [View.set_slice_whole, Rect.mem_set_unit]
  exact Iff.rfl

/-- THE POOLED ARRAY. The two write-backs (one per batch tile) cover the 64 rows, so after the call the output array is
    the pooled array of the x, weight and bias arrays the call found. -/
theorem final1 (c : Dev nD) :
    (dat1 V c).arrAt 3 cfg1.N = pooled (V c main_arg1) (V c main_v7) (V c main_arg9) :=
  (dat1 V c).arrAt_eq_of_cover 3 (pooled (V c main_arg1) (V c main_v7) (V c main_arg9)) (fun t hf => flushed1_eq V c t hf) fun i => by
    have hi0 : (i 0).val < 64 := (i 0).isLt
    have hi1 : (i 1).val < 128 := (i 1).isLt
    have hlt : 16 * ((i 0).val / 32) + 15 < cfg1.N := by rw [show cfg1.N = 32 from N_1]; omega
    obtain ⟨-, -, -, -, -, e5, e6⟩ := idx_facts1 ⟨16 * ((i 0).val / 32) + 15, hlt⟩
    refine ⟨⟨16 * ((i 0).val / 32) + 15, hlt⟩, (flush1_3 _).mpr (by dsimp only; omega), ?_⟩
    rw [mem_blk1]
    intro a
    match a with
    | ⟨0, _⟩ =>
      show win1_3.index ⟨16 * ((i 0).val / 32) + 15, hlt⟩ (0 : Fin 2) * 32 ≤ (i 0).val
        ∧ (i 0).val < win1_3.index ⟨16 * ((i 0).val / 32) + 15, hlt⟩ (0 : Fin 2) * 32 + 32
      rw [e5]; dsimp only; omega
    | ⟨1, _⟩ =>
      show win1_3.index ⟨16 * ((i 0).val / 32) + 15, hlt⟩ (1 : Fin 2) * 128 ≤ (i 1).val
        ∧ (i 1).val < win1_3.index ⟨16 * ((i 0).val / 32) + 15, hlt⟩ (1 : Fin 2) * 128 + 128
      rw [e6]; omega

end Cert.KernelIdeal.PoolValue

end
-- ==== Proof.KernelValue.lean ====
/-
  The idealized kernel's result as one function of its thirteen arguments.

  The first stretch of host operations computes the two weight rows  w = reshape ((reshape (U · A)) · P)  from the
  parameters of each branch. Each pooling call then leaves the pooled array of its branch's x, weight row and bias
  row. The last stretch joins the two pooled arrays side by side, applies the hidden layer with the logistic function,
  and the output layer with its bias. Nothing else writes the buffers involved, so the result buffer ends at this
  composition of the arguments as launched.
-/
import proofs.«180520_j36584531427734_2_alg».proof.Proof.PoolRun
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.KernelValue

open Cert.KernelIdeal Cert.KernelIdeal.Gen Cert.PoolAlgebra Cert.KernelIdeal.PoolValue

/-- A branch's weight row: (U · A), batched over the 16 projections, reshaped to [128, 32], times P, reshaped to [128]. -/
def weightRow (P : FVec Ideal S32x1 .f32) (U : FVec Ideal S16x8x1 .f32) (A : FVec Ideal S16x1x32 .f32) : FVec Ideal S128 .f32 :=
  shapeCast S128 (Host.dotGeneral (F := Ideal) dot_S128x32_S32x1_S128x1_1_0_0_1_n_n none
    (shapeCast S128x32 (Host.dotGeneral (F := Ideal) dot_S16x8x1_S16x1x32_S16x8x32_2_1_1_2_0_0 none U A) shapeCasts_S16x8x32_S128x32) P)
    shapeCasts_S128x1_S128

/-- The dense tail: the two pooled arrays side by side [64, 256], times W_hᵀ, through the logistic function spelled
    1 / (1 + exp (-z)), times C_wᵀ, plus the bias row C_b copied down the 64 rows. -/
def tail (p0 p1 : FVec Ideal S64x128 .f32) (Wh : FVec Ideal S256x256 .f32) (Cw : FVec Ideal S128x256 .f32)
    (Cb : FVec Ideal S128 .f32) : FVec Ideal S64x128 .f32 :=
  addf (Host.dotGeneral (F := Ideal) dot_S64x256_S256x128_S64x128_1_0_0_1_n_n none
      (Host.divf (F := Ideal) (broadcastInDim S64x256 ![] bcast_S_S64x256 (constant (F := Ideal) S_ .f32 0x3F800000#32))
        (addf (broadcastInDim S64x256 ![] bcast_S_S64x256 (constant (F := Ideal) S_ .f32 0x3F800000#32))
          (Host.exp (F := Ideal) (Host.negf (F := Ideal) (Host.dotGeneral (F := Ideal) dot_S64x256_S256x256_S64x256_1_0_0_1_n_n none
            (concatenate S64x256 1 [⟨S64x128, p0⟩, ⟨S64x128, p1⟩] concatenates_S64x128_S64x128_S64x256_d1)
            (transpose S256x256 [1, 0] Wh transposes_S256x256_S256x256_1_0))))))
      (transpose S256x128 [1, 0] Cw transposes_S128x256_S256x128_1_0))
    (broadcastInDim S64x128 ![0, 1] bcast_S1x128_S64x128_0_1 (broadcastInDim S1x128 ![1] bcast_S128_S1x128_1 Cb))

variable (m : (ℓ : Loc nD τ sig) → Buf (Elt Ideal) ℓ) (ρ : Dev nD → PrngReg)

/-! ## After the first stretch -/

/-- The first stretch leaves the first branch's weight row in its buffer. -/
theorem w0_eq (c : Dev nD) : W1 m ρ c (Proc.devRef .tc main_v3) = weightRow (m ((c : Thread nD τ).loc main_arg2)) (m ((c : Thread nD τ).loc main_arg3)) (m ((c : Thread nD τ).loc main_arg4)) := by
  show StableHlo.after hostOps0 (W0 m ρ c) (Proc.devRef .tc main_v3) = _
  after_results
  rfl

/-- The first stretch leaves the second branch's weight row in its buffer. -/
theorem w1_eq (c : Dev nD) : W1 m ρ c (Proc.devRef .tc main_v7) = weightRow (m ((c : Thread nD τ).loc main_arg6)) (m ((c : Thread nD τ).loc main_arg7)) (m ((c : Thread nD τ).loc main_arg8)) := by
  show StableHlo.after hostOps0 (W0 m ρ c) (Proc.devRef .tc main_v7) = _
  after_results
  rfl

/-- The first stretch writes no argument. -/
theorem W1_arg (c : Dev nD) (b : Ref sig .tc)
    (hb : b = main_arg0 ∨ b = main_arg1 ∨ b = main_arg5 ∨ b = main_arg9 ∨ b = main_arg10 ∨ b = main_arg11 ∨ b = main_arg12) :
    W1 m ρ c (Proc.devRef .tc b) = m ((c : Thread nD τ).loc b) := by
  show StableHlo.after hostOps0 (W0 m ρ c) (Proc.devRef .tc b) = _
  rcases hb with rfl | rfl | rfl | rfl | rfl | rfl | rfl <;> (after_results <;> rfl)

/-! ## After the two calls -/

/-- The first call's output array is the pooled array of the first branch. -/
theorem pool0_eq (c : Dev nD) : W3 m ρ c (Proc.devRef .tc main_v8)
    = pooled (m ((c : Thread nD τ).loc main_arg0)) (weightRow (m ((c : Thread nD τ).loc main_arg2)) (m ((c : Thread nD τ).loc main_arg3)) (m ((c : Thread nD τ).loc main_arg4))) (m ((c : Thread nD τ).loc main_arg5)) := by
  have h32 : W3 m ρ c (Proc.devRef .tc main_v8) = W2 m ρ c (Proc.devRef .tc main_v8) := W3_of_ne m ρ c main_v8 (by decide)
  have h2 : W2 m ρ c (Proc.devRef .tc main_v8) = (dat0 (V1 m ρ) c).arrAt 3 cfg0.N := W2_arr m ρ c 3
  rw [h32, h2, final0 (V1 m ρ) c]
  show pooled (W1 m ρ c (Proc.devRef .tc main_arg0)) (W1 m ρ c (Proc.devRef .tc main_v3)) (W1 m ρ c (Proc.devRef .tc main_arg5)) = _
  rw [w0_eq, W1_arg m ρ c main_arg0 (by simp), W1_arg m ρ c main_arg5 (by simp)]

/-- The second call's output array is the pooled array of the second branch: the first call writes none of the arrays
    the second reads. -/
theorem pool1_eq (c : Dev nD) : W3 m ρ c (Proc.devRef .tc main_v9)
    = pooled (m ((c : Thread nD τ).loc main_arg1)) (weightRow (m ((c : Thread nD τ).loc main_arg6)) (m ((c : Thread nD τ).loc main_arg7)) (m ((c : Thread nD τ).loc main_arg8))) (m ((c : Thread nD τ).loc main_arg9)) := by
  have h3 : W3 m ρ c (Proc.devRef .tc main_v9) = (dat1 (V2 m ρ) c).arrAt 3 cfg1.N := W3_arr m ρ c 3
  rw [h3, final1 (V2 m ρ) c]
  show pooled (W2 m ρ c (Proc.devRef .tc main_arg1)) (W2 m ρ c (Proc.devRef .tc main_v7)) (W2 m ρ c (Proc.devRef .tc main_arg9)) = _
  rw [W2_of_ne m ρ c main_arg1 (by decide), W2_of_ne m ρ c main_v7 (by decide), W2_of_ne m ρ c main_arg9 (by decide),
    w1_eq, W1_arg m ρ c main_arg1 (by simp), W1_arg m ρ c main_arg9 (by simp)]

/-- Neither call writes the dense layers' parameters. -/
theorem W3_param (c : Dev nD) (b : Ref sig .tc) (hb : b = main_arg10 ∨ b = main_arg11 ∨ b = main_arg12) :
    W3 m ρ c (Proc.devRef .tc b) = m ((c : Thread nD τ).loc b) := by
  rcases hb with rfl | rfl | rfl
  · rw [W3_of_ne m ρ c main_arg10 (by decide), W2_of_ne m ρ c main_arg10 (by decide), W1_arg m ρ c main_arg10 (by simp)]
  · rw [W3_of_ne m ρ c main_arg11 (by decide), W2_of_ne m ρ c main_arg11 (by decide), W1_arg m ρ c main_arg11 (by simp)]
  · rw [W3_of_ne m ρ c main_arg12 (by decide), W2_of_ne m ρ c main_arg12 (by decide), W1_arg m ρ c main_arg12 (by simp)]

/-! ## The result -/

/-- The kernel's result as a function of the arguments as launched. -/
def result (c : Dev nD) : Buf (Elt Ideal) ((c.tc : Thread nD τ).loc main_v23) :=
  tail (pooled (m ((c : Thread nD τ).loc main_arg0)) (weightRow (m ((c : Thread nD τ).loc main_arg2)) (m ((c : Thread nD τ).loc main_arg3)) (m ((c : Thread nD τ).loc main_arg4))) (m ((c : Thread nD τ).loc main_arg5)))
    (pooled (m ((c : Thread nD τ).loc main_arg1)) (weightRow (m ((c : Thread nD τ).loc main_arg6)) (m ((c : Thread nD τ).loc main_arg7)) (m ((c : Thread nD τ).loc main_arg8))) (m ((c : Thread nD τ).loc main_arg9)))
    (m ((c : Thread nD τ).loc main_arg10)) (m ((c : Thread nD τ).loc main_arg11)) (m ((c : Thread nD τ).loc main_arg12))

/-- The last stretch leaves the dense tail of the two pooled arrays in the result buffer. -/
theorem result_eq (c : Dev nD) : W4 m ρ c (Proc.devRef .tc main_v23) = result m c := by
  have h : W4 m ρ c (Proc.devRef .tc main_v23)
      = tail (W3 m ρ c (Proc.devRef .tc main_v8)) (W3 m ρ c (Proc.devRef .tc main_v9)) (W3 m ρ c (Proc.devRef .tc main_arg10))
          (W3 m ρ c (Proc.devRef .tc main_arg11)) (W3 m ρ c (Proc.devRef .tc main_arg12)) := by
    show StableHlo.after hostOps2 (W3 m ρ c) (Proc.devRef .tc main_v23) = _
    after_results
    rfl
  rw [h, pool0_eq, pool1_eq, W3_param m ρ c main_arg10 (by simp), W3_param m ρ c main_arg11 (by simp), W3_param m ρ c main_arg12 (by simp)]
  rfl

end Cert.KernelIdeal.KernelValue

end
-- ==== Proof.LibAfter.lean ====
/-
  The contents after two lines of host operations run one after the other: the fold of the concatenated
  line is the fold of the second line over the fold of the first. General; no program is imported.
-/
import Idealize.ShloMosaic.Lib.StableHlo.Run

namespace Idealize.ShloMosaic.StableHlo

variable {τ : Topo} {sig : RefSig} {Val : EltTy → Type}

/-- Folding the operations of `l₁ ++ l₂` over contents `V` is folding `l₂` over what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.RefStretches.lean ====
/-
  The reference's result read back from its run, stretch by stretch.

  The reference's @main is 64 host operations in a row. They fall into five consecutive stretches: the first branch's
  weight row (4 operations), the first branch's pooled array (20), the second branch's weight row (4), the second
  branch's pooled array (20), and the dense tail (16). Each stretch writes only its own intermediate buffers, so what a
  later stretch reads of an earlier one is exactly that stretch's last buffer, and every argument stays as launched.
  Folding the 64 operations is folding the five stretches one after the other, which gives the result as the dense tail
  of the two pooled arrays.
-/
import proofs.«180520_j36584531427734_2_alg».proof.Proof.RefRun
import proofs.«180520_j36584531427734_2_alg».proof.Proof.RefRead
import proofs.«180520_j36584531427734_2_alg».proof.Proof.LibAfter
import Idealize.ShloMosaic.Lib.StableHlo.Run

set_option maxRecDepth 16384

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The dense tail: the two pooled arrays side by side [64, 256], times W_hᵀ, through the logistic function spelled
    1 / (1 + exp (-z)), times C_wᵀ, plus the bias row C_b copied down the 64 rows. -/
def tailR (p0 p1 : FVec F S64x128 .f32) (Wh : FVec F S256x256 .f32) (Cw : FVec F S128x256 .f32)
    (Cb : FVec F S128 .f32) : FVec F S64x128 .f32 :=
  addf (Host.dotGeneral (F := F) dot_S64x256_S256x128_S64x128_1_0_0_1_n_n none
      (Host.divf (F := F) (broadcastInDim S64x256 ![] bcast_S_S64x256 (constant (F := F) S_ .f32 0x3F800000#32))
        (addf (broadcastInDim S64x256 ![] bcast_S_S64x256 (constant (F := F) S_ .f32 0x3F800000#32))
          (Host.exp (F := F) (Host.negf (F := F) (Host.dotGeneral (F := F) dot_S64x256_S256x256_S64x256_1_0_0_1_n_n none
            (concatenate S64x256 1 [⟨S64x128, p0⟩, ⟨S64x128, p1⟩] concatenates_S64x128_S64x128_S64x256_d1)
            (transpose S256x256 [1, 0] Wh transposes_S256x256_S256x256_1_0))))))
      (transpose S256x128 [1, 0] Cw transposes_S128x256_S256x128_1_0))
    (broadcastInDim S64x128 ![0, 1] bcast_S1x128_S64x128_0_1 (broadcastInDim S1x128 ![1] bcast_S128_S1x128_1 Cb))

/-! ## The five stretches -/

/-- Operations 1–4: the first branch's weight row. -/
abbrev opsA : List (HloOp τ sig (Elt F)) :=
  [ binary main_arg3 main_arg4 main_v0 ((fun l r => Host.dotGeneral dot_S16x8x1_S16x1x32_S16x8x32_2_1_1_2_0_0 none l r) : (⟨S16x8x1, .f32⟩ : BufTy).Contents (Elt F) → (⟨S16x1x32, .f32⟩ : BufTy).Contents (Elt F) → (⟨S16x8x32, .f32⟩ : BufTy).Contents (Elt F)),
    reshape main_v0 main_v1 rfl shapeCasts_S16x8x32_S128x32,
    binary main_v1 main_arg2 main_v2 ((fun l r => Host.dotGeneral dot_S128x32_S32x1_S128x1_1_0_0_1_n_n none l r) : (⟨S128x32, .f32⟩ : BufTy).Contents (Elt F) → (⟨S32x1, .f32⟩ : BufTy).Contents (Elt F) → (⟨S128x1, .f32⟩ : BufTy).Contents (Elt F)),
    reshape main_v2 main_v3 rfl shapeCasts_S128x1_S128 ]
/-- Operations 5–24: the first branch's pooled array. -/
abbrev opsB : List (HloOp τ sig (Elt F)) :=
  [ unary main_arg0 main_v4 (broadcastInDim S64x1024x16x1 ![0, 1, 2] bcast_S64x1024x16_S64x1024x16x1_0_1_2 : (⟨S64x1024x16, .f32⟩ : BufTy).Contents (Elt F) → (⟨S64x1024x16x1, .f32⟩ : BufTy).Contents (Elt F)),
    unary main_v3 main_v5 (broadcastInDim S1x1x1x128 ![3] bcast_S128_S1x1x1x128_3 : (⟨S128, .f32⟩ : BufTy).Contents (Elt F) → (⟨S1x1x1x128, .f32⟩ : BufTy).Contents (Elt F)),
    unary main_v4 main_v6 (broadcastInDim S64x1024x16x128 ![0, 1, 2, 3] bcast_S64x1024x16x1_S64x1024x16x128_0_1_2_3 : (⟨S64x1024x16x1, .f32⟩ : BufTy).Contents (Elt F) → (⟨S64x1024x16x128, .f32⟩ : BufTy).Contents (Elt F)),
    unary main_v5 main_v7 (broadcastInDim S64x1024x16x128 ![0, 1, 2, 3] bcast_S1x1x1x128_S64x1024x16x128_0_1_2_3 : (⟨S1x1x1x128, .f32⟩ : BufTy).Contents (Elt F) → (⟨S64x1024x16x128, .f32⟩ : BufTy).Contents (Elt F)),
    binary main_v6 main_v7 main_v8 (mulf : (⟨S64x1024x16x128, .f32⟩ : BufTy).Contents (Elt F) → (⟨S64x1024x16x128, .f32⟩ : BufTy).Contents (Elt F) → (⟨S64x1024x16x128, .f32⟩ : BufTy).Contents (Elt F)),
    unary main_arg5 main_v9 (broadcastInDim S1x1x1x128 ![3] bcast_S128_S1x1x1x128_3 : (⟨S128, .f32⟩ : BufTy).Contents (Elt F) → (⟨S1x1x1x128, .f32⟩ : BufTy).Contents (Elt F)),
    unary main_v9 main_v10 (broadcastInDim S64x1024x16x128 ![0, 1, 2, 3] bcast_S1x1x1x128_S64x1024x16x128_0_1_2_3 : (⟨S1x1x1x128, .f32⟩ : BufTy).Contents (Elt F) → (⟨S64x1024x16x128, .f32⟩ : BufTy).Contents (Elt F)),
    binary main_v8 main_v10 main_v11 (addf : (⟨S64x1024x16x128, .f32⟩ : BufTy).Contents (Elt F) → (⟨S64x1024x16x128, .f32⟩ : BufTy).Contents (Elt F) → (⟨S64x1024x16x128, .f32⟩ : BufTy).Contents (Elt F)),
    unary main_v11 main_v12 (Host.negf : (⟨S64x1024x16x128, .f32⟩ : BufTy).Contents (Elt F) → (⟨S64x1024x16x128, .f32⟩ : BufTy).Contents (Elt F)),
    unary main_v12 main_v13 (Host.exp : (⟨S64x1024x16x128, .f32⟩ : BufTy).Contents (Elt F) → (⟨S64x1024x16x128, .f32⟩ : BufTy).Contents (Elt F)),
    nullary main_cst (constant S_ .f32 0x3F800000#32),
    unary main_cst main_v14 (broadcastInDim S64x1024x16x128 ![] bcast_S_S64x1024x16x128 : (⟨S_, .f32⟩ : BufTy).Contents (Elt F) → (⟨S64x1024x16x128, .f32⟩ : BufTy).Contents (Elt F)),
    binary main_v14 main_v13 main_v15 (addf : (⟨S64x1024x16x128, .f32⟩ : BufTy).Contents (Elt F) → (⟨S64x1024x16x128, .f32⟩ : BufTy).Contents (Elt F) → (⟨S64x1024x16x128, .f32⟩ : BufTy).Contents (Elt F)),
    nullary main_cst_0 (constant S_ .f32 0x3F800000#32),
    unary main_cst_0 main_v16 (broadcastInDim S64x1024x16x128 ![] bcast_S_S64x1024x16x128 : (⟨S_, .f32⟩ : BufTy).Contents (Elt F) → (⟨S64x1024x16x128, .f32⟩ : BufTy).Contents (Elt F)),
    binary main_v16 main_v15 main_v17 (Host.divf : (⟨S64x1024x16x128, .f32⟩ : BufTy).Contents (Elt F) → (⟨S64x1024x16x128, .f32⟩ : BufTy).Contents (Elt F) → (⟨S64x1024x16x128, .f32⟩ : BufTy).Contents (Elt F)),
    nullary main_cst_1 (constant S_ .f32 0xFF800000#32),
    binary main_v17 main_cst_1 main_v18 ((fun x v => Host.reduce FloatOps.maximumf x v reducesTo_S64x1024x16x128_S64x1024x128_d2 h_S_) : (⟨S64x1024x16x128, .f32⟩ : BufTy).Contents (Elt F) → (⟨S_, .f32⟩ : BufTy).Contents (Elt F) → (⟨S64x1024x128, .f32⟩ : BufTy).Contents (Elt F)),
    nullary main_cst_2 (constant S_ .f32 0x00000000#32),
    binary main_v18 main_cst_2 main_v19 ((fun x v => Host.reduceAdd x v reducesTo_S64x1024x128_S64x128_d1 h_S_) : (⟨S64x1024x128, .f32⟩ : BufTy).Contents (Elt F) → (⟨S_, .f32⟩ : BufTy).Contents (Elt F) → (⟨S64x128, .f32⟩ : BufTy).Contents (Elt F)) ]
/-- Operations 25–28: the second branch's weight row. -/
abbrev opsC : List (HloOp τ sig (Elt F)) :=
  [ binary main_arg7 main_arg8 main_v20 ((fun l r => Host.dotGeneral dot_S16x8x1_S16x1x32_S16x8x32_2_1_1_2_0_0 none l r) : (⟨S16x8x1, .f32⟩ : BufTy).Contents (Elt F) → (⟨S16x1x32, .f32⟩ : BufTy).Contents (Elt F) → (⟨S16x8x32, .f32⟩ : BufTy).Contents (Elt F)),
    reshape main_v20 main_v21 rfl shapeCasts_S16x8x32_S128x32,
    binary main_v21 main_arg6 main_v22 ((fun l r => Host.dotGeneral dot_S128x32_S32x1_S128x1_1_0_0_1_n_n none l r) : (⟨S128x32, .f32⟩ : BufTy).Contents (Elt F) → (⟨S32x1, .f32⟩ : BufTy).Contents (Elt F) → (⟨S128x1, .f32⟩ : BufTy).Contents (Elt F)),
    reshape main_v22 main_v23 rfl shapeCasts_S128x1_S128 ]
/-- Operations 29–48: the second branch's pooled array. -/
abbrev opsD : List (HloOp τ sig (Elt F)) :=
  [ unary main_arg1 main_v24 (broadcastInDim S64x1024x16x1 ![0, 1, 2] bcast_S64x1024x16_S64x1024x16x1_0_1_2 : (⟨S64x1024x16, .f32⟩ : BufTy).Contents (Elt F) → (⟨S64x1024x16x1, .f32⟩ : BufTy).Contents (Elt F)),
    unary main_v23 main_v25 (broadcastInDim S1x1x1x128 ![3] bcast_S128_S1x1x1x128_3 : (⟨S128, .f32⟩ : BufTy).Contents (Elt F) → (⟨S1x1x1x128, .f32⟩ : BufTy).Contents (Elt F)),
    unary main_v24 main_v26 (broadcastInDim S64x1024x16x128 ![0, 1, 2, 3] bcast_S64x1024x16x1_S64x1024x16x128_0_1_2_3 : (⟨S64x1024x16x1, .f32⟩ : BufTy).Contents (Elt F) → (⟨S64x1024x16x128, .f32⟩ : BufTy).Contents (Elt F)),
    unary main_v25 main_v27 (broadcastInDim S64x1024x16x128 ![0, 1, 2, 3] bcast_S1x1x1x128_S64x1024x16x128_0_1_2_3 : (⟨S1x1x1x128, .f32⟩ : BufTy).Contents (Elt F) → (⟨S64x1024x16x128, .f32⟩ : BufTy).Contents (Elt F)),
    binary main_v26 main_v27 main_v28 (mulf : (⟨S64x1024x16x128, .f32⟩ : BufTy).Contents (Elt F) → (⟨S64x1024x16x128, .f32⟩ : BufTy).Contents (Elt F) → (⟨S64x1024x16x128, .f32⟩ : BufTy).Contents (Elt F)),
    unary main_arg9 main_v29 (broadcastInDim S1x1x1x128 ![3] bcast_S128_S1x1x1x128_3 : (⟨S128, .f32⟩ : BufTy).Contents (Elt F) → (⟨S1x1x1x128, .f32⟩ : BufTy).Contents (Elt F)),
    unary main_v29 main_v30 (broadcastInDim S64x1024x16x128 ![0, 1, 2, 3] bcast_S1x1x1x128_S64x1024x16x128_0_1_2_3 : (⟨S1x1x1x128, .f32⟩ : BufTy).Contents (Elt F) → (⟨S64x1024x16x128, .f32⟩ : BufTy).Contents (Elt F)),
    binary main_v28 main_v30 main_v31 (addf : (⟨S64x1024x16x128, .f32⟩ : BufTy).Contents (Elt F) → (⟨S64x1024x16x128, .f32⟩ : BufTy).Contents (Elt F) → (⟨S64x1024x16x128, .f32⟩ : BufTy).Contents (Elt F)),
    unary main_v31 main_v32 (Host.negf : (⟨S64x1024x16x128, .f32⟩ : BufTy).Contents (Elt F) → (⟨S64x1024x16x128, .f32⟩ : BufTy).Contents (Elt F)),
    unary main_v32 main_v33 (Host.exp : (⟨S64x1024x16x128, .f32⟩ : BufTy).Contents (Elt F) → (⟨S64x1024x16x128, .f32⟩ : BufTy).Contents (Elt F)),
    nullary main_cst_3 (constant S_ .f32 0x3F800000#32),
    unary main_cst_3 main_v34 (broadcastInDim S64x1024x16x128 ![] bcast_S_S64x1024x16x128 : (⟨S_, .f32⟩ : BufTy).Contents (Elt F) → (⟨S64x1024x16x128, .f32⟩ : BufTy).Contents (Elt F)),
    binary main_v34 main_v33 main_v35 (addf : (⟨S64x1024x16x128, .f32⟩ : BufTy).Contents (Elt F) → (⟨S64x1024x16x128, .f32⟩ : BufTy).Contents (Elt F) → (⟨S64x1024x16x128, .f32⟩ : BufTy).Contents (Elt F)),
    nullary main_cst_4 (constant S_ .f32 0x3F800000#32),
    unary main_cst_4 main_v36 (broadcastInDim S64x1024x16x128 ![] bcast_S_S64x1024x16x128 : (⟨S_, .f32⟩ : BufTy).Contents (Elt F) → (⟨S64x1024x16x128, .f32⟩ : BufTy).Contents (Elt F)),
    binary main_v36 main_v35 main_v37 (Host.divf : (⟨S64x1024x16x128, .f32⟩ : BufTy).Contents (Elt F) → (⟨S64x1024x16x128, .f32⟩ : BufTy).Contents (Elt F) → (⟨S64x1024x16x128, .f32⟩ : BufTy).Contents (Elt F)),
    nullary main_cst_5 (constant S_ .f32 0xFF800000#32),
    binary main_v37 main_cst_5 main_v38 ((fun x v => Host.reduce FloatOps.maximumf x v reducesTo_S64x1024x16x128_S64x1024x128_d2 h_S_) : (⟨S64x1024x16x128, .f32⟩ : BufTy).Contents (Elt F) → (⟨S_, .f32⟩ : BufTy).Contents (Elt F) → (⟨S64x1024x128, .f32⟩ : BufTy).Contents (Elt F)),
    nullary main_cst_6 (constant S_ .f32 0x00000000#32),
    binary main_v38 main_cst_6 main_v39 ((fun x v => Host.reduceAdd x v reducesTo_S64x1024x128_S64x128_d1 h_S_) : (⟨S64x1024x128, .f32⟩ : BufTy).Contents (Elt F) → (⟨S_, .f32⟩ : BufTy).Contents (Elt F) → (⟨S64x128, .f32⟩ : BufTy).Contents (Elt F)) ]
/-- Operations 49–64: the dense tail. -/
abbrev opsE : List (HloOp τ sig (Elt F)) :=
  [ binary main_v19 main_v39 main_v40 ((fun a b => concatenate S64x256 1 [⟨S64x128, a⟩, ⟨S64x128, b⟩] concatenates_S64x128_S64x128_S64x256_d1) : (⟨S64x128, .f32⟩ : BufTy).Contents (Elt F) → (⟨S64x128, .f32⟩ : BufTy).Contents (Elt F) → (⟨S64x256, .f32⟩ : BufTy).Contents (Elt F)),
    unary main_arg10 main_v41 ((transpose S256x256 [1, 0] · transposes_S256x256_S256x256_1_0) : (⟨S256x256, .f32⟩ : BufTy).Contents (Elt F) → (⟨S256x256, .f32⟩ : BufTy).Contents (Elt F)),
    binary main_v40 main_v41 main_v42 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)),
    unary main_v42 main_v43 (Host.negf : (⟨S64x256, .f32⟩ : BufTy).Contents (Elt F) → (⟨S64x256, .f32⟩ : BufTy).Contents (Elt F)),
    unary main_v43 main_v44 (Host.exp : (⟨S64x256, .f32⟩ : BufTy).Contents (Elt F) → (⟨S64x256, .f32⟩ : BufTy).Contents (Elt F)),
    nullary main_cst_7 (constant S_ .f32 0x3F800000#32),
    unary main_cst_7 main_v45 (broadcastInDim S64x256 ![] bcast_S_S64x256 : (⟨S_, .f32⟩ : BufTy).Contents (Elt F) → (⟨S64x256, .f32⟩ : BufTy).Contents (Elt F)),
    binary main_v45 main_v44 main_v46 (addf : (⟨S64x256, .f32⟩ : BufTy).Contents (Elt F) → (⟨S64x256, .f32⟩ : BufTy).Contents (Elt F) → (⟨S64x256, .f32⟩ : BufTy).Contents (Elt F)),
    nullary main_cst_8 (constant S_ .f32 0x3F800000#32),
    unary main_cst_8 main_v47 (broadcastInDim S64x256 ![] bcast_S_S64x256 : (⟨S_, .f32⟩ : BufTy).Contents (Elt F) → (⟨S64x256, .f32⟩ : BufTy).Contents (Elt F)),
    binary main_v47 main_v46 main_v48 (Host.divf : (⟨S64x256, .f32⟩ : BufTy).Contents (Elt F) → (⟨S64x256, .f32⟩ : BufTy).Contents (Elt F) → (⟨S64x256, .f32⟩ : BufTy).Contents (Elt F)),
    unary main_arg11 main_v49 ((transpose S256x128 [1, 0] · transposes_S128x256_S256x128_1_0) : (⟨S128x256, .f32⟩ : BufTy).Contents (Elt F) → (⟨S256x128, .f32⟩ : BufTy).Contents (Elt F)),
    binary main_v48 main_v49 main_v50 ((fun l r => Host.dotGeneral dot_S64x256_S256x128_S64x128_1_0_0_1_n_n none l r) : (⟨S64x256, .f32⟩ : BufTy).Contents (Elt F) → (⟨S256x128, .f32⟩ : BufTy).Contents (Elt F) → (⟨S64x128, .f32⟩ : BufTy).Contents (Elt F)),
    unary main_arg12 main_v51 (broadcastInDim S1x128 ![1] bcast_S128_S1x128_1 : (⟨S128, .f32⟩ : BufTy).Contents (Elt F) → (⟨S1x128, .f32⟩ : BufTy).Contents (Elt F)),
    unary main_v51 main_v52 (broadcastInDim S64x128 ![0, 1] bcast_S1x128_S64x128_0_1 : (⟨S1x128, .f32⟩ : BufTy).Contents (Elt F) → (⟨S64x128, .f32⟩ : BufTy).Contents (Elt F)),
    binary main_v50 main_v52 main_v53 (addf : (⟨S64x128, .f32⟩ : BufTy).Contents (Elt F) → (⟨S64x128, .f32⟩ : BufTy).Contents (Elt F) → (⟨S64x128, .f32⟩ : BufTy).Contents (Elt F)) ]

/-- The 64 operations are the five stretches in a row. -/
theorem ops_split : (ops : List (HloOp τ sig (Elt F))) = opsA ++ (opsB ++ (opsC ++ (opsD ++ opsE))) := rfl

/-- The thirteen argument buffers. -/
abbrev IsArg (b : Ref sig .tc) : Prop := b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12

/-! ## No stretch writes an argument; the later stretches keep the first pooled array -/

/-- Stretch A writes no argument. -/
theorem keepA (V : Valuation τ sig (Elt F)) (b : Ref sig .tc) (hb : IsArg b) :
    after (opsA (F := F)) V (Proc.devRef .tc b) = V (Proc.devRef .tc b) := by
  refine after_of_forall_not_mem (b := Proc.devRef .tc b) _ _ (List.forall_iff_forall_mem.mp ?_)
  simp only [opsA, List.Forall, nullary_writes, unary_writes, binary_writes, reshape_writes, Finset.mem_singleton]
  rcases hb with rfl | rfl | rfl | rfl | rfl | rfl | rfl | rfl | rfl | rfl | rfl | rfl | rfl <;>
    (repeat' apply And.intro
     all_goals exact devRef_ne_of_ne (by decide))

/-- Stretch B writes no argument. -/
theorem keepB (V : Valuation τ sig (Elt F)) (b : Ref sig .tc) (hb : IsArg b) :
    after (opsB (F := F)) V (Proc.devRef .tc b) = V (Proc.devRef .tc b) := by
  refine after_of_forall_not_mem (b := Proc.devRef .tc b) _ _ (List.forall_iff_forall_mem.mp ?_)
  simp only [opsB, List.Forall, nullary_writes, unary_writes, binary_writes, reshape_writes, Finset.mem_singleton]
  rcases hb with rfl | rfl | rfl | rfl | rfl | rfl | rfl | rfl | rfl | rfl | rfl | rfl | rfl <;>
    (repeat' apply And.intro
     all_goals exact devRef_ne_of_ne (by decide))

/-- Stretch C writes no argument. -/
theorem keepC (V : Valuation τ sig (Elt F)) (b : Ref sig .tc) (hb : IsArg b) :
    after (opsC (F := F)) V (Proc.devRef .tc b) = V (Proc.devRef .tc b) := by
  refine after_of_forall_not_mem (b := Proc.devRef .tc b) _ _ (List.forall_iff_forall_mem.mp ?_)
  simp only [opsC, List.Forall, nullary_writes, unary_writes, binary_writes, reshape_writes, Finset.mem_singleton]
  rcases hb with rfl | rfl | rfl | rfl | rfl | rfl | rfl | rfl | rfl | rfl | rfl | rfl | rfl <;>
    (repeat' apply And.intro
     all_goals exact devRef_ne_of_ne (by decide))

/-- Stretch D writes no argument. -/
theorem keepD (V : Valuation τ sig (Elt F)) (b : Ref sig .tc) (hb : IsArg b) :
    after (opsD (F := F)) V (Proc.devRef .tc b) = V (Proc.devRef .tc b) := by
  refine after_of_forall_not_mem (b := Proc.devRef .tc b) _ _ (List.forall_iff_forall_mem.mp ?_)
  simp only [opsD, List.Forall, nullary_writes, unary_writes, binary_writes, reshape_writes, Finset.mem_singleton]
  rcases hb with rfl | rfl | rfl | rfl | rfl | rfl | rfl | rfl | rfl | rfl | rfl | rfl | rfl <;>
    (repeat' apply And.intro
     all_goals exact devRef_ne_of_ne (by decide))

/-- Stretch E writes no argument. -/
theorem keepE (V : Valuation τ sig (Elt F)) (b : Ref sig .tc) (hb : IsArg b) :
    after (opsE (F := F)) V (Proc.devRef .tc b) = V (Proc.devRef .tc b) := by
  refine after_of_forall_not_mem (b := Proc.devRef .tc b) _ _ (List.forall_iff_forall_mem.mp ?_)
  simp only [opsE, List.Forall, nullary_writes, unary_writes, binary_writes, reshape_writes, Finset.mem_singleton]
  rcases hb with rfl | rfl | rfl | rfl | rfl | rfl | rfl | rfl | rfl | rfl | rfl | rfl | rfl <;>
    (repeat' apply And.intro
     all_goals exact devRef_ne_of_ne (by decide))

/-- The second branch's weight row stretch does not write the first pooled array. -/
theorem keepC_v19 (V : Valuation τ sig (Elt F)) :
    after (opsC (F := F)) V (Proc.devRef .tc main_v19) = V (Proc.devRef .tc main_v19) := by
  after_results <;> rfl
/-- The second branch's pooling stretch does not write the first pooled array. -/
theorem keepD_v19 (V : Valuation τ sig (Elt F)) :
    after (opsD (F := F)) V (Proc.devRef .tc main_v19) = V (Proc.devRef .tc main_v19) := by
  after_results <;> rfl

/-! ## What each stretch computes -/

/-- Stretch A leaves the first branch's weight row, computed from its three parameters. -/
theorem afterA_v3 (V : Valuation τ sig (Elt F)) : after (opsA (F := F)) V (Proc.devRef .tc main_v3)
    = val_main_v3 (F := F) (V (Proc.devRef .tc main_arg2)) (V (Proc.devRef .tc main_arg3)) (V (Proc.devRef .tc main_arg4)) := by
  after_results <;> rfl

/-- Stretch B leaves the first branch's pooled array, from the x array, the weight row stretch A left, and the bias row. -/
theorem afterB_v19 (V : Valuation τ sig (Elt F)) (x0 : (⟨S64x1024x16, .f32⟩ : BufTy).Contents (Elt F))
    (x2 : (⟨S32x1, .f32⟩ : BufTy).Contents (Elt F)) (x3 : (⟨S16x8x1, .f32⟩ : BufTy).Contents (Elt F))
    (x4 : (⟨S16x1x32, .f32⟩ : BufTy).Contents (Elt F)) (x5 : (⟨S128, .f32⟩ : BufTy).Contents (Elt F))
    (h0 : V (Proc.devRef .tc main_arg0) = x0) (h3 : V (Proc.devRef .tc main_v3) = val_main_v3 (F := F) x2 x3 x4)
    (h5 : V (Proc.devRef .tc main_arg5) = x5) :
    after (opsB (F := F)) V (Proc.devRef .tc main_v19) = val_main_v19 (F := F) x0 x2 x3 x4 x5 := by
  after_results
  rw [h0, h3, h5]
  rfl

/-- Stretch C leaves the second branch's weight row. -/
theorem afterC_v23 (V : Valuation τ sig (Elt F)) : after (opsC (F := F)) V (Proc.devRef .tc main_v23)
    = val_main_v23 (F := F) (V (Proc.devRef .tc main_arg6)) (V (Proc.devRef .tc main_arg7)) (V (Proc.devRef .tc main_arg8)) := by
  after_results <;> rfl

/-- Stretch D leaves the second branch's pooled array. -/
theorem afterD_v39 (V : Valuation τ sig (Elt F)) (x1 : (⟨S64x1024x16, .f32⟩ : BufTy).Contents (Elt F))
    (x6 : (⟨S32x1, .f32⟩ : BufTy).Contents (Elt F)) (x7 : (⟨S16x8x1, .f32⟩ : BufTy).Contents (Elt F))
    (x8 : (⟨S16x1x32, .f32⟩ : BufTy).Contents (Elt F)) (x9 : (⟨S128, .f32⟩ : BufTy).Contents (Elt F))
    (h1 : V (Proc.devRef .tc main_arg1) = x1) (h23 : V (Proc.devRef .tc main_v23) = val_main_v23 (F := F) x6 x7 x8)
    (h9 : V (Proc.devRef .tc main_arg9) = x9) :
    after (opsD (F := F)) V (Proc.devRef .tc main_v39) = val_main_v39 (F := F) x1 x6 x7 x8 x9 := by
  after_results
  rw [h1, h23, h9]
  rfl

/-- Stretch E leaves the dense tail of the two pooled arrays and the dense layers' parameters. -/
theorem afterE_v53 (V : Valuation τ sig (Elt F)) : after (opsE (F := F)) V (Proc.devRef .tc main_v53)
    = tailR (F := F) (V (Proc.devRef .tc main_v19)) (V (Proc.devRef .tc main_v39)) (V (Proc.devRef .tc main_arg10)) (V (Proc.devRef .tc main_arg11)) (V (Proc.devRef .tc main_arg12)) := by
  after_results <;> rfl

/-! ## The 64 operations together -/

/-- The 64 operations write no argument. -/
theorem arg_after (V : Valuation τ sig (Elt F)) (b : Ref sig .tc) (hb : IsArg b) :
    after (ops (F := F)) V (Proc.devRef .tc b) = V (Proc.devRef .tc b) := by
  rw [ops_split, after_append, after_append, after_append, after_append]
  exact (keepE _ b hb).trans ((keepD _ b hb).trans ((keepC _ b hb).trans ((keepB _ b hb).trans (keepA V b hb))))

/-- The 64 operations leave, in the result buffer, the dense tail of the two branches' pooled arrays of the arguments. -/
theorem result_after (V : Valuation τ sig (Elt F)) : after (ops (F := F)) V (Proc.devRef .tc main_v53)
    = tailR (F := F) (val_main_v19 (F := F) (V (Proc.devRef .tc main_arg0)) (V (Proc.devRef .tc main_arg2)) (V (Proc.devRef .tc main_arg3)) (V (Proc.devRef .tc main_arg4)) (V (Proc.devRef .tc main_arg5)))
        (val_main_v39 (F := F) (V (Proc.devRef .tc main_arg1)) (V (Proc.devRef .tc main_arg6)) (V (Proc.devRef .tc main_arg7)) (V (Proc.devRef .tc main_arg8)) (V (Proc.devRef .tc main_arg9)))
        (V (Proc.devRef .tc main_arg10)) (V (Proc.devRef .tc main_arg11)) (V (Proc.devRef .tc main_arg12)) := by
  have hA : ∀ b, IsArg b → after (opsA (F := F)) V (Proc.devRef .tc b) = V (Proc.devRef .tc b) := fun b hb => keepA V b hb
  have hB : ∀ b, IsArg b → after (opsB (F := F)) (after opsA V) (Proc.devRef .tc b) = V (Proc.devRef .tc b) :=
    fun b hb => (keepB _ b hb).trans (hA b hb)
  have hC : ∀ b, IsArg b → after (opsC (F := F)) (after opsB (after opsA V)) (Proc.devRef .tc b) = V (Proc.devRef .tc b) :=
    fun b hb => (keepC _ b hb).trans (hB b hb)
  have hD : ∀ b, IsArg b → after (opsD (F := F)) (after opsC (after opsB (after opsA V))) (Proc.devRef .tc b) = V (Proc.devRef .tc b) :=
    fun b hb => (keepD _ b hb).trans (hC b hb)
  have h19 : after (opsD (F := F)) (after opsC (after opsB (after opsA V))) (Proc.devRef .tc main_v19)
      = val_main_v19 (F := F) (V (Proc.devRef .tc main_arg0)) (V (Proc.devRef .tc main_arg2)) (V (Proc.devRef .tc main_arg3)) (V (Proc.devRef .tc main_arg4)) (V (Proc.devRef .tc main_arg5)) :=
    (keepD_v19 _).trans ((keepC_v19 _).trans (afterB_v19 (after opsA V) _ _ _ _ _ (hA main_arg0 (by decide)) (afterA_v3 V) (hA main_arg5 (by decide))))
  have h23 : after (opsC (F := F)) (after opsB (after opsA V)) (Proc.devRef .tc main_v23)
      = val_main_v23 (F := F) (V (Proc.devRef .tc main_arg6)) (V (Proc.devRef .tc main_arg7)) (V (Proc.devRef .tc main_arg8)) := by
    rw [afterC_v23, hB main_arg6 (by decide), hB main_arg7 (by decide), hB main_arg8 (by decide)]
  have h39 : after (opsD (F := F)) (after opsC (after opsB (after opsA V))) (Proc.devRef .tc main_v39)
      = val_main_v39 (F := F) (V (Proc.devRef .tc main_arg1)) (V (Proc.devRef .tc main_arg6)) (V (Proc.devRef .tc main_arg7)) (V (Proc.devRef .tc main_arg8)) (V (Proc.devRef .tc main_arg9)) :=
    afterD_v39 (after opsC (after opsB (after opsA V))) _ _ _ _ _ (hC main_arg1 (by decide)) h23 (hC main_arg9 (by decide))
  rw [ops_split, after_append, after_append, after_append, after_append, afterE_v53, h19, h39,
    hD main_arg10 (by decide), hD main_arg11 (by decide), hD main_arg12 (by decide)]

/-! ## The run -/

/-- Every weakly fair execution of the reference terminates with the result buffer at the dense tail of the two pooled
    arrays of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53)
        = tailR (F := F) (val_main_v19 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
            (val_main_v39 (F := F) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)))
            (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v53).trans (result_after (launchContents m c)),
      (h c main_arg0).trans (arg_after _ main_arg0 (by decide)),
      (h c main_arg1).trans (arg_after _ main_arg1 (by decide)),
      (h c main_arg2).trans (arg_after _ main_arg2 (by decide)),
      (h c main_arg3).trans (arg_after _ main_arg3 (by decide)),
      (h c main_arg4).trans (arg_after _ main_arg4 (by decide)),
      (h c main_arg5).trans (arg_after _ main_arg5 (by decide)),
      (h c main_arg6).trans (arg_after _ main_arg6 (by decide)),
      (h c main_arg7).trans (arg_after _ main_arg7 (by decide)),
      (h c main_arg8).trans (arg_after _ main_arg8 (by decide)),
      (h c main_arg9).trans (arg_after _ main_arg9 (by decide)),
      (h c main_arg10).trans (arg_after _ main_arg10 (by decide)),
      (h c main_arg11).trans (arg_after _ main_arg11 (by decide)),
      (h c main_arg12).trans (arg_after _ main_arg12 (by decide))⟩)
    (run_after m ρ)

end Cert.ReferenceIdeal.RefValue

end
-- ==== Proof.LibMaxAxis2.lean ====
import Idealize.ShloMosaic.Lib.ValueIdx
import Idealize.ShloMosaic.PureOps.Ideal.Laws

/-!
  A MAXIMUM OVER AXIS 2 OF A RANK-4 ARRAY AS A FOLD.

  The host's reduction with a maximum body over axis 2 of `x : [A, B, J, C]` is, at the ideal values and at
  `(a, b, r)`, the fold of `max` from the initial value over the entries `x (a, b, d, r)`, `d < J`. The maximum is
  commutative and associative, so the order in which the host visits the axis does not matter. (The companion of the
  same statement for the last axis.)
-/

open Idealize.ShloMosaic Idealize.ShloMosaic.ValueIdx

namespace MaxAxis2

variable {A B J C : Nat}

/-- Dropping axis 2 of `[A, B, J, C]` leaves `[A, B, C]`, a shape with an axis: the host's shape fact gives the
    vector reduction's. -/
theorem reduces_of_reducesTo (h' : (⟨4, ![A, B, J, C]⟩ : Shape).ReducesTo [2] (⟨3, ![A, B, C]⟩ : Shape)) :
    (⟨4, ![A, B, J, C]⟩ : Shape).Reduces [2] (⟨3, ![A, B, C]⟩ : Shape) :=
  ⟨h'.1, Nat.succ_pos 2, h'.2⟩

/-- `(a, b, r)` with the coordinate `k` put back on axis 2 is `(a, b, k, r)`. -/
theorem lift_ix4 (h : (⟨4, ![A, B, J, C]⟩ : Shape).Reduces [2] (⟨3, ![A, B, C]⟩ : Shape)) (a : Fin A) (b : Fin B) (r : Fin C)
    (k : Fin ((⟨4, ![A, B, J, C]⟩ : Shape).size 2)) :
    h.lift (ix3 a b r) k = ix4 a b (⟨k.val, k.isLt⟩ : Fin J) r := by
  funext c; apply Fin.ext
  fin_cases c <;> rfl

/-- THE MAXIMUM AT `(a, b, r)`: the fold of `max` from the initial value's element over axis 2. -/
theorem hostReduce_maximumf_axis2 {φ : FTy} {u : Shape} (x : FVec Ideal ⟨4, ![A, B, J, C]⟩ φ) (init : u.Idx → Ideal φ)
    (h' : (⟨4, ![A, B, J, C]⟩ : Shape).ReducesTo [2] (⟨3, ![A, B, C]⟩ : Shape)) (hu : 0 < u.numel)
    (a : Fin A) (b : Fin B) (r : Fin C) :
    Host.reduce FloatOps.maximumf x init h' hu (ix3 a b r)
      = (Finset.univ : Finset (Fin J)).fold max (init (Shape.Idx.first hu)) (fun d => x (ix4 a b d r)) := by
  have h := reduces_of_reducesTo h'
  rw [Host.reduce_eq_fold_single FloatOps.maximumf x init h' h hu]
  have hf : (x ∘ h.lift (ix3 a b r)) = fun d : Fin J => x (ix4 a b d r) :=
    funext fun k => congrArg x (lift_ix4 h a b r k)
  exact congrArg (fun f => Finset.fold max (init (Shape.Idx.first hu)) f (Finset.univ : Finset (Fin J))) hf

end MaxAxis2
-- ==== Proof.RefPool.lean ====
/-
  The reference's two pooled arrays, read entry by entry over the extended reals.

  The reference expands x to [64, 1024, 16, 128] by  sigmoid (x[..., None] · w + V)  — the sigmoid spelled as
  1 / (1 + exp (-t)) —, takes the maximum over the 16 features from -infinity and the sum over the 1024 set elements from
  zero. The maximum from -infinity over sixteen values is their largest, and the sum from zero is the sum, so each
  branch's [64, 128] array is the pooled array of its x, weight row and bias row.
-/
import proofs.«180520_j36584531427734_2_alg».proof.Proof.RefRead
import proofs.«180520_j36584531427734_2_alg».proof.Proof.PoolSpec
import proofs.«180520_j36584531427734_2_alg».proof.Proof.LibMaxAxis2
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Cert.PoolAlgebra
open Idealize.ShloMosaic Idealize.ShloMosaic.TcCoe Idealize.SL.Sem Idealize.ShloMosaic.ValueIdx

/-! ## The first branch -/

/-- The first branch's expanded array [64, 1024, 16, 128] at (b, n, d, m): logistic (x(b,n,d) · w(m) + v(m)), the reference
    spelling the logistic function as 1 / (1 + exp (-t)). -/
theorem gate_ref0 (x0 : (⟨S64x1024x16, .f32⟩ : BufTy).Contents (Elt Ideal)) (x2 : (⟨S32x1, .f32⟩ : BufTy).Contents (Elt Ideal))
    (x3 : (⟨S16x8x1, .f32⟩ : BufTy).Contents (Elt Ideal)) (x4 : (⟨S16x1x32, .f32⟩ : BufTy).Contents (Elt Ideal))
    (x5 : (⟨S128, .f32⟩ : BufTy).Contents (Elt Ideal))
    (b : Fin 64) (n : Fin 1024) (d : Fin 16) (m : Fin 128) :
    val_main_v17 (F := Ideal) x0 x2 x3 x4 x5 (ix4 b n d m)
      = Ideal.logistic (x0 (ix3 b n d) * val_main_v3 (F := Ideal) x2 x3 x4 (ix1 m) + x5 (ix1 m)) := by
  rw [val_main_v17_apply, val_main_v16_apply, val_main_cst_0_apply, val_main_v15_apply, val_main_v14_apply, val_main_cst_apply,
    val_main_v13_apply, val_main_v12_apply, val_main_v11_apply, val_main_v8_apply, val_main_v6_apply, val_main_v4_apply,
    val_main_v7_apply, val_main_v5_apply, val_main_v10_apply, val_main_v9_apply]
  have e1 : idx_main_v4 (idx_main_v6 (ix4 b n d m)) = ix3 b n d :=
    funext fun a => Fin.ext (by match a with | ⟨0, _⟩ => rfl | ⟨1, _⟩ => rfl | ⟨2, _⟩ => rfl)
  have e2 : idx_main_v5 (idx_main_v7 (ix4 b n d m)) = ix1 m :=
    funext fun a => Fin.ext (by match a with | ⟨0, _⟩ => rfl)
  have e3 : idx_main_v9 (idx_main_v10 (ix4 b n d m)) = ix1 m :=
    funext fun a => Fin.ext (by match a with | ⟨0, _⟩ => rfl)
  rw [e1, e2, e3]
  simp only [Ideal.hostDivf_def, Ideal.addf_def, Ideal.hostUnary_exp_def, Ideal.hostNegf_def, Ideal.negf_def, Ideal.mulf_def,
    Ideal.ofBits_def]
  exact host_logistic _

/-- The first branch's pooled array as the reference computes it — the maximum over the feature axis from -infinity, then
    the sum over the set axis from zero — is the pooled array. -/
theorem pool_ref0 (x0 : (⟨S64x1024x16, .f32⟩ : BufTy).Contents (Elt Ideal)) (x2 : (⟨S32x1, .f32⟩ : BufTy).Contents (Elt Ideal))
    (x3 : (⟨S16x8x1, .f32⟩ : BufTy).Contents (Elt Ideal)) (x4 : (⟨S16x1x32, .f32⟩ : BufTy).Contents (Elt Ideal))
    (x5 : (⟨S128, .f32⟩ : BufTy).Contents (Elt Ideal)) :
    val_main_v19 (F := Ideal) x0 x2 x3 x4 x5 = pooled x0 (val_main_v3 (F := Ideal) x2 x3 x4) x5 := by
  funext i
  obtain ⟨b, m, rfl⟩ : ∃ (b : Fin 64) (m : Fin 128), i = ix2 b m := ⟨i 0, i 1, eq_ix2 i⟩
  rw [val_main_v19_apply, val_main_cst_2_apply, pooled_apply _ _ _ (ix2 b m) b m rfl rfl]
  show Ideal.ofBits .f32 0x00000000#32 + _ = _
  rw [Ideal.ofBits_zero_f32, zero_add]
  refine Finset.sum_congr rfl fun n _ => ?_
  have ei : idx_main_v19 (ix2 b m) n = ix3 b n m :=
    funext fun a => Fin.ext (by match a with | ⟨0, _⟩ => rfl | ⟨1, _⟩ => rfl | ⟨2, _⟩ => rfl)
  rw [ei]
  unfold val_main_v18 gate
  rw [MaxAxis2.hostReduce_maximumf_axis2 _ _ reducesTo_S64x1024x16x128_S64x1024x128_d2 h_S_ b n m, val_main_cst_1_apply]
  show Finset.fold max (Ideal.ofBits .f32 0xFF800000#32) _ _ = _
  rw [ofBits_neg_inf_f32, fold_max_sixteen]
  exact congrArg max16 (funext fun d => gate_ref0 x0 x2 x3 x4 x5 b n d m)

/-! ## The second branch -/

/-- The second branch's expanded array [64, 1024, 16, 128] at (b, n, d, m): logistic (x(b,n,d) · w(m) + v(m)), the reference
    spelling the logistic function as 1 / (1 + exp (-t)). -/
theorem gate_ref1 (x1 : (⟨S64x1024x16, .f32⟩ : BufTy).Contents (Elt Ideal)) (x6 : (⟨S32x1, .f32⟩ : BufTy).Contents (Elt Ideal))
    (x7 : (⟨S16x8x1, .f32⟩ : BufTy).Contents (Elt Ideal)) (x8 : (⟨S16x1x32, .f32⟩ : BufTy).Contents (Elt Ideal))
    (x9 : (⟨S128, .f32⟩ : BufTy).Contents (Elt Ideal))
    (b : Fin 64) (n : Fin 1024) (d : Fin 16) (m : Fin 128) :
    val_main_v37 (F := Ideal) x1 x6 x7 x8 x9 (ix4 b n d m)
      = Ideal.logistic (x1 (ix3 b n d) * val_main_v23 (F := Ideal) x6 x7 x8 (ix1 m) + x9 (ix1 m)) := by
  rw [val_main_v37_apply, val_main_v36_apply, val_main_cst_4_apply, val_main_v35_apply, val_main_v34_apply, val_main_cst_3_apply,
    val_main_v33_apply, val_main_v32_apply, val_main_v31_apply, val_main_v28_apply, val_main_v26_apply, val_main_v24_apply,
    val_main_v27_apply, val_main_v25_apply, val_main_v30_apply, val_main_v29_apply]
  have e1 : idx_main_v24 (idx_main_v26 (ix4 b n d m)) = ix3 b n d :=
    funext fun a => Fin.ext (by match a with | ⟨0, _⟩ => rfl | ⟨1, _⟩ => rfl | ⟨2, _⟩ => rfl)
  have e2 : idx_main_v25 (idx_main_v27 (ix4 b n d m)) = ix1 m :=
    funext fun a => Fin.ext (by match a with | ⟨0, _⟩ => rfl)
  have e3 : idx_main_v29 (idx_main_v30 (ix4 b n d m)) = ix1 m :=
    funext fun a => Fin.ext (by match a with | ⟨0, _⟩ => rfl)
  rw [e1, e2, e3]
  simp only [Ideal.hostDivf_def, Ideal.addf_def, Ideal.hostUnary_exp_def, Ideal.hostNegf_def, Ideal.negf_def, Ideal.mulf_def,
    Ideal.ofBits_def]
  exact host_logistic _

/-- The second branch's pooled array as the reference computes it — the maximum over the feature axis from -infinity, then
    the sum over the set axis from zero — is the pooled array. -/
theorem pool_ref1 (x1 : (⟨S64x1024x16, .f32⟩ : BufTy).Contents (Elt Ideal)) (x6 : (⟨S32x1, .f32⟩ : BufTy).Contents (Elt Ideal))
    (x7 : (⟨S16x8x1, .f32⟩ : BufTy).Contents (Elt Ideal)) (x8 : (⟨S16x1x32, .f32⟩ : BufTy).Contents (Elt Ideal))
    (x9 : (⟨S128, .f32⟩ : BufTy).Contents (Elt Ideal)) :
    val_main_v39 (F := Ideal) x1 x6 x7 x8 x9 = pooled x1 (val_main_v23 (F := Ideal) x6 x7 x8) x9 := by
  funext i
  obtain ⟨b, m, rfl⟩ : ∃ (b : Fin 64) (m : Fin 128), i = ix2 b m := ⟨i 0, i 1, eq_ix2 i⟩
  rw [val_main_v39_apply, val_main_cst_6_apply, pooled_apply _ _ _ (ix2 b m) b m rfl rfl]
  show Ideal.ofBits .f32 0x00000000#32 + _ = _
  rw [Ideal.ofBits_zero_f32, zero_add]
  refine Finset.sum_congr rfl fun n _ => ?_
  have ei : idx_main_v39 (ix2 b m) n = ix3 b n m :=
    funext fun a => Fin.ext (by match a with | ⟨0, _⟩ => rfl | ⟨1, _⟩ => rfl | ⟨2, _⟩ => rfl)
  rw [ei]
  unfold val_main_v38 gate
  rw [MaxAxis2.hostReduce_maximumf_axis2 _ _ reducesTo_S64x1024x16x128_S64x1024x128_d2 h_S_ b n m, val_main_cst_5_apply]
  show Finset.fold max (Ideal.ofBits .f32 0xFF800000#32) _ _ = _
  rw [ofBits_neg_inf_f32, fold_max_sixteen]
  exact congrArg max16 (funext fun d => gate_ref1 x1 x6 x7 x8 x9 b n d m)

end Cert.ReferenceIdeal.RefValue

end
-- ==== Proof.Claims.lean ====
/-
  The five claims.

  At the ideal values both programs compute, from the same thirteen arguments, the dense tail of the two branches'
  pooled arrays: the kernel by two pooling calls between two stretches of host operations, the reference by 64 host
  operations. The weight rows and the dense tail are spelled by the same operations in both programs, and each branch's
  pooled array is the same function of its x, weight row and bias row on both sides: the kernel's running maximum
  over the features is the reference's maximum from -infinity, the kernel's logistic is the reference's
  1 / (1 + exp (-t)), and the kernel's sixteen tile sums add up to the reference's sum over the whole set. None of
  this needs the inputs to be finite. The frames are the generated ones for the two kernel programs and the
  reference's run for the reference; the idealization rewrote nothing.
-/
import proofs.«180520_j36584531427734_2_alg».proof.Defs
import proofs.«180520_j36584531427734_2_alg».proof.Proof.Gen.Kernel.Frame
import proofs.«180520_j36584531427734_2_alg».proof.Proof.Gen.KernelIdeal.Frame
import proofs.«180520_j36584531427734_2_alg».proof.Proof.Gen.Pre_finite_inputs
import proofs.«180520_j36584531427734_2_alg».proof.Proof.KernelRun
import proofs.«180520_j36584531427734_2_alg».proof.Proof.KernelValue
import proofs.«180520_j36584531427734_2_alg».proof.Proof.RefStretches
import proofs.«180520_j36584531427734_2_alg».proof.Proof.RefPool

set_option maxRecDepth 16384

noncomputable section

namespace Cert.Proof.Claims

open Idealize.ShloMosaic Idealize.ShloMosaic.TcCoe Idealize.SL.Sem

/-- The reference's first weight row is the kernel's: the same four operations on the same parameters. -/
theorem weightRow_ref0 (P : (⟨Cert.ReferenceIdeal.S32x1, .f32⟩ : BufTy).Contents (Elt Ideal))
    (U : (⟨Cert.ReferenceIdeal.S16x8x1, .f32⟩ : BufTy).Contents (Elt Ideal))
    (A : (⟨Cert.ReferenceIdeal.S16x1x32, .f32⟩ : BufTy).Contents (Elt Ideal)) :
    Cert.ReferenceIdeal.ReadP.val_main_v3 (F := Ideal) P U A = Cert.KernelIdeal.KernelValue.weightRow P U A := rfl

/-- The reference's second weight row is the kernel's. -/
theorem weightRow_ref1 (P : (⟨Cert.ReferenceIdeal.S32x1, .f32⟩ : BufTy).Contents (Elt Ideal))
    (U : (⟨Cert.ReferenceIdeal.S16x8x1, .f32⟩ : BufTy).Contents (Elt Ideal))
    (A : (⟨Cert.ReferenceIdeal.S16x1x32, .f32⟩ : BufTy).Contents (Elt Ideal)) :
    Cert.ReferenceIdeal.ReadP.val_main_v23 (F := Ideal) P U A = Cert.KernelIdeal.KernelValue.weightRow P U A := rfl

/-- The reference's dense tail is the kernel's: the same sixteen operations. -/
theorem tail_ref (p0 p1 : (⟨Cert.ReferenceIdeal.S64x128, .f32⟩ : BufTy).Contents (Elt Ideal))
    (Wh : (⟨Cert.ReferenceIdeal.S256x256, .f32⟩ : BufTy).Contents (Elt Ideal))
    (Cw : (⟨Cert.ReferenceIdeal.S128x256, .f32⟩ : BufTy).Contents (Elt Ideal))
    (Cb : (⟨Cert.ReferenceIdeal.S128, .f32⟩ : BufTy).Contents (Elt Ideal)) :
    Cert.ReferenceIdeal.RefValue.tailR (F := Ideal) p0 p1 Wh Cw Cb = Cert.KernelIdeal.KernelValue.tail p0 p1 Wh Cw Cb := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both programs end with the dense tail of the two pooled arrays of the arguments in their result buffers. -/
theorem algebraic : Cert.algebraic_KernelIdeal_ReferenceIdeal := by
  intro m ρ m' ρ' _ hagree
  refine ⟨fun c => Cert.KernelIdeal.KernelValue.result m c, ?_, ?_⟩
  · exact (θ_run Cert.KernelIdeal.defs _ _).mono
      (fun _ h c => ⟨(h c).1.trans (Cert.KernelIdeal.KernelValue.result_eq m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.RefValue.run (F := Ideal) m' ρ')
    obtain ⟨a0, a1, a2, a3, a4, a5, a6, a7, a8, a9, a10, a11, a12⟩ := hagree c
    rw [a0, a1, a2, a3, a4, a5, a6, a7, a8, a9, a10, a11, a12,
      Cert.ReferenceIdeal.RefValue.pool_ref0, Cert.ReferenceIdeal.RefValue.pool_ref1, weightRow_ref0, weightRow_ref1, tail_ref]
    rfl

end Cert.Proof.Claims

end
-- ==== Proof.lean ====
/-
  The certificate's proof: the four programs' and the precondition's stated side conditions are the generated
  instances, and the five claims are those of Proof/Claims.lean — the three frames, the (empty) idealization ledger,
  and the equality of the idealized kernel's and the idealized reference's results over the extended reals.
-/
import proofs.«180520_j36584531427734_2_alg».proof.Defs
import proofs.«180520_j36584531427734_2_alg».proof.Proof.Gen.Kernel
import proofs.«180520_j36584531427734_2_alg».proof.Proof.Gen.KernelIdeal
import proofs.«180520_j36584531427734_2_alg».proof.Proof.Gen.ReferenceIdeal
import proofs.«180520_j36584531427734_2_alg».proof.Proof.Gen.Pre_finite_inputs
import proofs.«180520_j36584531427734_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
